-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16384x3 : Shape := ⟨3, ![4, 16384, 3]⟩
abbrev S4x16384x512 : Shape := ⟨3, ![4, 16384, 512]⟩
abbrev S4x16384 : Shape := ⟨2, ![4, 16384]⟩
abbrev S4x512 : Shape := ⟨2, ![4, 512]⟩
abbrev S512 : Shape := ⟨1, ![512]⟩
abbrev S512x512 : Shape := ⟨2, ![512, 512]⟩
abbrev S6x512 : Shape := ⟨2, ![6, 512]⟩
abbrev S_ : Shape := ⟨0, ![]⟩

class Facts : Prop where
  bcast_S_S4x16384x3 : S_.BroadcastsInDim S4x16384x3 (![] : Fin 0 → Fin S4x16384x3.rank)
  reducesTo_S4x16384x3_S_d0_1_2 : S4x16384x3.ReducesTo [0, 1, 2] S_
  h_S_ : 0 < S_.numel
  bcast_S_S4x16384x512 : S_.BroadcastsInDim S4x16384x512 (![] : Fin 0 → Fin S4x16384x512.rank)
  reducesTo_S4x16384x512_S_d0_1_2 : S4x16384x512.ReducesTo [0, 1, 2] S_
  bcast_S_S4x512 : S_.BroadcastsInDim S4x512 (![] : Fin 0 → Fin S4x512.rank)
  reducesTo_S4x512_S_d0_1 : S4x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S6x512 : S_.BroadcastsInDim S6x512 (![] : Fin 0 → Fin S6x512.rank)
  reducesTo_S6x512_S_d0_1 : S6x512.ReducesTo [0, 1] S_

variable [Facts]

def fn_part2 {F : FTy → Type} [FloatOps F] (main_arg8 : FVec F S512 .f32) (main_arg9 : FVec F S512x512 .f32) (main_arg10 : FVec F S512 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg9
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg5 : FVec F S512x512 .f32) (main_arg6 : FVec F S512 .f32) (main_arg7 : FVec F S6x512 .f32) (main_arg8 : FVec F S512 .f32) (main_arg9 : FVec F S512x512 .f32) (main_arg10 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S6x512 .f32 := Host.absf main_arg7
  let main_cst_10 : FVec F S_ .f32 := constant S_ .f32 0x7F800000#32
  let main_v30 : FVec F S6x512 .f32 := broadcastInDim S6x512 ![] bcast_S_S6x512 main_cst_10
  let main_v31 : IVec S6x512 1 := cmpf .olt main_v29 main_v30
  let main_c_11 : IVec S_ 1 := constantI S_ 1 1#1
  let main_v32 : IVec S_ 1 := (fun x v => Host.reduce IntOp.andi x v reducesTo_S6x512_S_d0_1 h_S_) main_v31 main_c_11
  let main_v33 : IVec S_ 1 := andi main_v28 main_v32
  fn_part2 (F := F) main_arg8 main_arg9 main_arg10 main_v33

def fn {F : FTy → Type} [FloatOps F] (main_arg0 : FVec F S4x16384x3 .f32) (main_arg1 : FVec F S4x16384x512 .f32) (main_arg2 : IVec S4x16384 32) (main_arg3 : FVec F S4x512 .f32) (main_arg4 : FVec F S512 .f32) (main_arg5 : FVec F S512x512 .f32) (main_arg6 : FVec F S512 .f32) (main_arg7 : FVec F S6x512 .f32) (main_arg8 : FVec F S512 .f32) (main_arg9 : FVec F S512x512 .f32) (main_arg10 : FVec F S512 .f32) : IVec S_ 1 :=
  let main_v0 : FVec F S4x16384x3 .f32 := Host.absf main_arg0
  let main_cst : FVec F S_ .f32 := constant S_ .f32 0x7F800000#32
  let main_v1 : FVec F S4x16384x3 .f32 := broadcastInDim S4x16384x3 ![] bcast_S_S4x16384x3 main_cst
  let main_v2 : IVec S4x16384x3 1 := cmpf .olt main_v0 main_v1
  let main_c : IVec S_ 1 := constantI S_ 1 1#1
  let main_v3 : IVec S_ 1 := (fun x v => Host.reduce IntOp.andi x v reducesTo_S4x16384x3_S_d0_1_2 h_S_) main_v2 main_c
  let main_v4 : FVec F S4x16384x512 .f32 := Host.absf main_arg1
  let main_cst_0 : FVec F S_ .f32 := constant S_ .f32 0x7F800000#32
  let main_v5 : FVec F S4x16384x512 .f32 := broadcastInDim S4x16384x512 ![] bcast_S_S4x16384x512 main_cst_0
  let main_v6 : IVec S4x16384x512 1 := cmpf .olt main_v4 main_v5
  let main_c_1 : IVec S_ 1 := constantI S_ 1 1#1
  let main_v7 : IVec S_ 1 := (fun x v => Host.reduce IntOp.andi x v reducesTo_S4x16384x512_S_d0_1_2 h_S_) main_v6 main_c_1
  let main_v8 : IVec S_ 1 := andi main_v3 main_v7
  let main_v9 : FVec F S4x512 .f32 := Host.absf main_arg3
  let main_cst_2 : FVec F S_ .f32 := constant S_ .f32 0x7F800000#32
  let main_v10 : FVec F S4x512 .f32 := broadcastInDim S4x512 ![] bcast_S_S4x512 main_cst_2
  let main_v11 : IVec S4x512 1 := cmpf .olt main_v9 main_v10
  let main_c_3 : IVec S_ 1 := constantI S_ 1 1#1
  let main_v12 : IVec S_ 1 := (fun x v => Host.reduce IntOp.andi x v reducesTo_S4x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_arg9 main_arg10 main_v13 main_v16
-- ==== Kernel.lean ====
abbrev S4x16384x3 : Shape := ⟨3, ![4, 16384, 3]⟩
abbrev S4x16384x512 : Shape := ⟨3, ![4, 16384, 512]⟩
abbrev S4x16384 : Shape := ⟨2, ![4, 16384]⟩
abbrev S4x512 : Shape := ⟨2, ![4, 512]⟩
abbrev S512 : Shape := ⟨1, ![512]⟩
abbrev S512x512 : Shape := ⟨2, ![512, 512]⟩
abbrev S6x512 : Shape := ⟨2, ![6, 512]⟩
abbrev S4 : Shape := ⟨1, ![4]⟩
abbrev S4x1 : Shape := ⟨2, ![4, 1]⟩
abbrev S_ : Shape := ⟨0, ![]⟩
abbrev S65536 : Shape := ⟨1, ![65536]⟩
abbrev S65536x3 : Shape := ⟨2, ![65536, 3]⟩
abbrev S65536x512 : Shape := ⟨2, ![65536, 512]⟩
abbrev S8192 : Shape := ⟨1, ![8192]⟩
abbrev S65536x1 : Shape := ⟨2, ![65536, 1]⟩
abbrev S8192x1 : Shape := ⟨2, ![8192, 1]⟩
abbrev S8192x3 : Shape := ⟨2, ![8192, 3]⟩
abbrev S65536x4 : Shape := ⟨2, ![65536, 4]⟩
abbrev S65536x6 : Shape := ⟨2, ![65536, 6]⟩
abbrev S65536x10 : Shape := ⟨2, ![65536, 10]⟩
abbrev S10x1024 : Shape := ⟨2, ![10, 1024]⟩
abbrev S1 : Shape := ⟨1, ![1]⟩
abbrev S2 : Shape := ⟨1, ![2]⟩
abbrev S1024 : Shape := ⟨1, ![1024]⟩
abbrev S1x1024 : Shape := ⟨2, ![1, 1024]⟩
abbrev S1x512 : Shape := ⟨2, ![1, 512]⟩
abbrev S2048x10 : Shape := ⟨2, ![2048, 10]⟩
abbrev S2048x512 : Shape := ⟨2, ![2048, 512]⟩
abbrev S2048x1024 : Shape := ⟨2, ![2048, 1024]⟩

abbrev nBuf : Space → Nat
  | .hbm => 97
  | .vmem => 14
  | .smem => 0
  | _ => 0

abbrev bufTy : (tb : Table) → Fin (tcTables nBuf tb) → BufTy
  | .hbm, ⟨0, _⟩ => ⟨S4x16384x3, .f32⟩
  | .hbm, ⟨1, _⟩ => ⟨S4x16384x512, .f32⟩
  | .hbm, ⟨2, _⟩ => ⟨S4x16384, .i32⟩
  | .hbm, ⟨3, _⟩ => ⟨S4x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S6x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S4, .i32⟩
  | .hbm, ⟨12, _⟩ => ⟨S4x1, .i32⟩
  | .hbm, ⟨13, _⟩ => ⟨S_, .i32⟩
  | .hbm, ⟨14, _⟩ => ⟨S4x1, .i32⟩
  | .hbm, ⟨15, _⟩ => ⟨S4x1, .i32⟩
  | .hbm, ⟨16, _⟩ => ⟨S4x16384, .i32⟩
  | .hbm, ⟨17, _⟩ => ⟨S4x16384, .i32⟩
  | .hbm, ⟨18, _⟩ => ⟨S65536, .i32⟩
  | .hbm, ⟨19, _⟩ => ⟨S65536x3, .f32⟩
  | .hbm, ⟨20, _⟩ => ⟨S65536x512, .f32⟩
  | .hbm, ⟨21, _⟩ => ⟨S_, .f32⟩
  | .hbm, ⟨22, _⟩ => ⟨S65536, .f32⟩
  | .hbm, ⟨23, _⟩ => ⟨S_, .f32⟩
  | .hbm, ⟨24, _⟩ => ⟨S8192, .f32⟩
  | .hbm, ⟨25, _⟩ => ⟨S65536x1, .i32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x3, .f32⟩
  | .hbm, ⟨34, _⟩ => ⟨S65536x1, .i32⟩
  | .hbm, ⟨35, _⟩ => ⟨S8192x3, .f32⟩
  | .hbm, ⟨36, _⟩ => ⟨S8192x3, .f32⟩
  | .hbm, ⟨37, _⟩ => ⟨S8192x3, .f32⟩
  | .hbm, ⟨38, _⟩ => ⟨S_, .i32⟩
  | .hbm, ⟨39, _⟩ => ⟨S65536, .i32⟩
  | .hbm, ⟨40, _⟩ => ⟨S65536, .i1⟩
  | .hbm, ⟨41, _⟩ => ⟨S_, .i32⟩
  | .hbm, ⟨42, _⟩ => ⟨S65536, .i32⟩
  | .hbm, ⟨43, _⟩ => ⟨S65536, .i32⟩
  | .hbm, ⟨44, _⟩ => ⟨S65536, .i32⟩
  | .hbm, ⟨45, _⟩ => ⟨S65536x1, .i32⟩
  | .hbm, ⟨46, _⟩ => ⟨S65536x3, .f32⟩
  | .hbm, ⟨47, _⟩ => ⟨S65536x3, .f32⟩
  | .hbm, ⟨48, _⟩ => ⟨S65536x3, .f32⟩
  | .hbm, ⟨49, _⟩ => ⟨S_, .f32⟩
  | .hbm, ⟨50, _⟩ => ⟨S65536, .f32⟩
  | .hbm, ⟨51, _⟩ => ⟨S65536x1, .f32⟩
  | .hbm, ⟨52, _⟩ => ⟨S65536x1, .f32⟩
  | .hbm, ⟨53, _⟩ => ⟨S65536x4, .f32⟩
  | .hbm, ⟨54, _⟩ => ⟨S_, .f32⟩
  | .hbm, ⟨55, _⟩ => ⟨S8192x3, .f32⟩
  | .hbm, ⟨56, _⟩ => ⟨S65536x1, .i32⟩
  | .hbm, ⟨57, _⟩ => ⟨S8192x3, .f32⟩
  | .hbm, ⟨58, _⟩ => ⟨S8192x3, .f32⟩
  | .hbm, ⟨59, _⟩ => ⟨S8192x3, .f32⟩
  | .hbm, ⟨60, _⟩ => ⟨S_, .i32⟩
  | .hbm, ⟨61, _⟩ => ⟨S65536, .i32⟩
  | .hbm, ⟨62, _⟩ => ⟨S65536, .i1⟩
  | .hbm, ⟨63, _⟩ => ⟨S_, .i32⟩
  | .hbm, ⟨64, _⟩ => ⟨S65536, .i32⟩
  | .hbm, ⟨65, _⟩ => ⟨S65536, .i32⟩
  | .hbm, ⟨66, _⟩ => ⟨S65536, .i32⟩
  | .hbm, ⟨67, _⟩ => ⟨S65536x1, .i32⟩
  | .hbm, ⟨68, _⟩ => ⟨S65536x3, .f32⟩
  | .hbm, ⟨69, _⟩ => ⟨S65536x6, .f32⟩
  | .hbm, ⟨70, _⟩ => ⟨S65536x10, .f32⟩
  | .hbm, ⟨71, _⟩ => ⟨S4x512, .bf16⟩
  | .hbm, ⟨72, _⟩ => ⟨S6x512, .bf16⟩
  | .hbm, ⟨73, _⟩ => ⟨S_, .bf16⟩
  | .hbm, ⟨74, _⟩ => ⟨S10x1024, .bf16⟩
  | .hbm, ⟨75, _⟩ => ⟨S_, .i32⟩
  | .hbm, ⟨76, _⟩ => ⟨S1, .i32⟩
  | .hbm, ⟨77, _⟩ => ⟨S_, .i32⟩
  | .hbm, ⟨78, _⟩ => ⟨S1, .i32⟩
  | .hbm, ⟨79, _⟩ => ⟨S2, .i32⟩
  | .hbm, ⟨80, _⟩ => ⟨S10x1024, .bf16⟩
  | .hbm, ⟨81, _⟩ => ⟨S_, .i32⟩
  | .hbm, ⟨82, _⟩ => ⟨S1, .i32⟩
  | .hbm, ⟨83, _⟩ => ⟨S_, .i32⟩
  | .hbm, ⟨84, _⟩ => ⟨S1, .i32⟩
  | .hbm, ⟨85, _⟩ => ⟨S2, .i32⟩
  | .hbm, ⟨86, _⟩ => ⟨S10x1024, .bf16⟩
  | .hbm, ⟨87, _⟩ => ⟨S1024, .f32⟩
  | .hbm, ⟨88, _⟩ => ⟨S1x1024, .f32⟩
  | .hbm, ⟨89, _⟩ => ⟨S512x512, .bf16⟩
  | .hbm, ⟨90, _⟩ => ⟨S512x512, .bf16⟩
  | .hbm, ⟨91, _⟩ => ⟨S1x512, .f32⟩
  | .hbm, ⟨92, _⟩ => ⟨S1x512, .f32⟩
  | .hbm, ⟨93, _⟩ => ⟨S65536x512, .f32⟩
  | .hbm, ⟨94, _⟩ => ⟨S65536x512, .f32⟩
  | .hbm, ⟨95, _⟩ => ⟨S4x16384x512, .f32⟩
  | .hbm, ⟨96, _⟩ => ⟨S4x16384x512, .f32⟩
  | .local _ .vmem, ⟨0, _⟩ => ⟨S2048x10, .f32⟩
  | .local _ .vmem, ⟨1, _⟩ => ⟨S2048x10, .f32⟩
  | .local _ .vmem, ⟨2, _⟩ => ⟨S2048x512, .f32⟩
  | .local _ .vmem, ⟨3, _⟩ => ⟨S2048x512, .f32⟩
  | .local _ .vmem, ⟨4, _⟩ => ⟨S10x1024, .bf16⟩
  | .local _ .vmem, ⟨5, _⟩ => ⟨S1x1024, .f32⟩
  | .local _ .vmem, ⟨6, _⟩ => ⟨S512x512, .bf16⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S2048x512, .f32⟩
  | .local _ .vmem, ⟨11, _⟩ => ⟨S2048x512, .f32⟩
  | .local _ .vmem, ⟨12, _⟩ => ⟨S2048x512, .f32⟩
  | .local _ .vmem, ⟨13, _⟩ => ⟨S2048x512, .f32⟩
  | _, _ => ⟨S4x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call1_v0 : Ref sig .tc := ⟨.hbm, 48, rfl⟩
abbrev main_call1_cst : Ref sig .tc := ⟨.hbm, 49, rfl⟩
abbrev main_call1_v1 : Ref sig .tc := ⟨.hbm, 50, rfl⟩
abbrev main_call1_v2 : Ref sig .tc := ⟨.hbm, 51, rfl⟩
abbrev main_v28 : Ref sig .tc := ⟨.hbm, 52, rfl⟩
abbrev main_v29 : Ref sig .tc := ⟨.hbm, 53, rfl⟩
abbrev main_cst_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_6 : Ref sig .tc := ⟨.hbm, 60, rfl⟩
abbrev main_v35 : Ref sig .tc := ⟨.hbm, 61, rfl⟩
abbrev main_v36 : Ref sig .tc := ⟨.hbm, 62, rfl⟩
abbrev main_c_7 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_8 : Ref sig .tc := ⟨.hbm, 73, rfl⟩
abbrev main_v46 : Ref sig .tc := ⟨.hbm, 74, rfl⟩
abbrev main_c_9 : Ref sig .tc := ⟨.hbm, 75, rfl⟩
abbrev main_v47 : Ref sig .tc := ⟨.hbm, 76, rfl⟩
abbrev main_c_10 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_11 : Ref sig .tc := ⟨.hbm, 81, rfl⟩
abbrev main_v51 : Ref sig .tc := ⟨.hbm, 82, rfl⟩
abbrev main_c_12 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61_0 : Ref sig .tc := ⟨.hbm, 93, rfl⟩
abbrev main_v61_1 : Ref sig .tc := ⟨.hbm, 94, rfl⟩
abbrev main_v62 : Ref sig .tc := ⟨.hbm, 95, rfl⟩
abbrev main_v63 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S4_S4x1_0 : S4.BroadcastsInDim S4x1 (![0] : Fin 1 → Fin S4x1.rank)
  bcast_S_S4x1 : S_.BroadcastsInDim S4x1 (![] : Fin 0 → Fin S4x1.rank)
  bcast_S4x1_S4x16384_0_1 : S4x1.BroadcastsInDim S4x16384 (![0, 1] : Fin 2 → Fin S4x16384.rank)
  shapeCasts_S4x16384_S65536 : S4x16384.ShapeCasts S65536
  shapeCasts_S4x16384x3_S65536x3 : S4x16384x3.ShapeCasts S65536x3
  shapeCasts_S4x16384x512_S65536x512 : S4x16384x512.ShapeCasts S65536x512
  bcast_S_S65536 : S_.BroadcastsInDim S65536 (![] : Fin 0 → Fin S65536.rank)
  bcast_S_S8192 : S_.BroadcastsInDim S8192 (![] : Fin 0 → Fin S8192.rank)
  bcast_S65536_S65536x1_0 : S65536.BroadcastsInDim S65536x1 (![0] : Fin 1 → Fin S65536x1.rank)
  bcast_S8192_S8192x1_0 : S8192.BroadcastsInDim S8192x1 (![0] : Fin 1 → Fin S8192x1.rank)
  bcast_S_S8192x3 : S_.BroadcastsInDim S8192x3 (![] : Fin 0 → Fin S8192x3.rank)
  bcast_S8192x1_S8192x3_0_1 : S8192x1.BroadcastsInDim S8192x3 (![0, 1] : Fin 2 → Fin S8192x3.rank)
  reducesTo_S65536x3_S65536_d1 : S65536x3.ReducesTo [1] S65536
  h_S_ : 0 < S_.numel
  concatenates_S65536x3_S65536x1_S65536x4_d1 : Shape.Concatenates [S65536x3, S65536x1] S65536x4 1
  concatenates_S65536x3_S65536x3_S65536x6_d1 : Shape.Concatenates [S65536x3, S65536x3] S65536x6 1
  concatenates_S65536x4_S65536x6_S65536x10_d1 : Shape.Concatenates [S65536x4, S65536x6] S65536x10 1
  bitsLt_bf16_f32 : FTy.bits .bf16 < FTy.bits .f32
  bcast_S_S10x1024 : S_.BroadcastsInDim S10x1024 (![] : Fin 0 → Fin S10x1024.rank)
  bcast_S_S1 : S_.BroadcastsInDim S1 (![] : Fin 0 → Fin S1.rank)
  concatenates_S1_S1_S2_d0 : Shape.Concatenates [S1, S1] S2 0
  concatenates_S512_S512_S1024_d0 : Shape.Concatenates [S512, S512] S1024 0
  shapeCasts_S1024_S1x1024 : S1024.ShapeCasts S1x1024
  shapeCasts_S512_S1x512 : S512.ShapeCasts S1x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x10_S2048x10_0_0 : ∀ a, (![0, 0] : Fin 2 → Nat) a + S2048x10.size a ≤ S2048x10.size a
  h_S2048x10 : 0 < S2048x10.numel
  shapeCasts_S2048x10_S2048x10 : S2048x10.ShapeCasts S2048x10
  inb_S10x1024_S10x1024_0_0 : ∀ a, (![0, 0] : Fin 2 → Nat) a + S10x1024.size a ≤ S10x1024.size a
  h_S10x1024 : 0 < S10x1024.numel
  shapeCasts_S10x1024_S10x1024 : S10x1024.ShapeCasts S10x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  slices_S2048x1024_o0_0_S2048x512 : S2048x1024.Slices ![0, 0] S2048x512
  slices_S2048x1024_o0_512_S2048x512 : S2048x1024.Slices ![0, 512] S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  shapeCasts_S65536x512_S4x16384x512 : S65536x512.ShapeCasts S4x16384x512
  scatter_S8192_S65536x1_S65536_n_0_0_1_wf : ScatterDims.WF S8192 S65536x1 S65536 [] [0] [0] 1
  scatter_S8192x3_S65536x1_S65536x3_1_0_0_1_wf : ScatterDims.WF S8192x3 S65536x1 S65536x3 [1] [0] [0] 1
  gather_S8192x3_S65536x1_S65536x3_1_0_n_n_0_1_13_wf : GatherDims.WF S8192x3 S65536x1 S65536x3 [1] [0] [] [0] [] 1 ![1, 3]
  scatter_S10x1024_S2_S4x512_01_n_01_0_wf : ScatterDims.WF S10x1024 S2 S4x512 [0, 1] [] [0, 1] 0
  scatter_S10x1024_S2_S6x512_01_n_01_0_wf : ScatterDims.WF S10x1024 S2 S6x512 [0, 1] [] [0, 1] 0
  dot_S2048x10_S10x1024_S2048x1024_1_0_0_1_n_n_wf : DotDims.WF S2048x10 S10x1024 S2048x1024 [1] [0] [0] [1] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x10.size a ≤ S65536x10.size a
  hwx0_0 : ∀ i : grid0.Coords, EltTy.bits .f32 = 32 ∨ (Rect.block (s := S65536x10) S2048x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S65536x512.size a
  hwx0_1 : ∀ i : grid0.Coords, EltTy.bits .f32 = 32 ∨ (Rect.block (s := S65536x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x1024.size a ≤ S10x1024.size a
  hwx0_2 : ∀ i : grid0.Coords, EltTy.bits .bf16 = 32 ∨ (Rect.block (s := S10x1024) S10x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x512.size a ≤ S65536x512.size a
  hwx0_8 : ∀ i : grid0.Coords, EltTy.bits .f32 = 32 ∨ (Rect.block (s := S65536x512) S2048x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x512.size a ≤ S65536x512.size a
  hwx0_9 : ∀ i : grid0.Coords, EltTy.bits .f32 = 32 ∨ (Rect.block (s := S65536x512) S2048x512.size (cc0_transform_9 i) (hinb0_9 i)).WholeWords (EltTy.packing .f32)

variable [Facts₀]

def scatter_S8192_S65536x1_S65536_n_0_0_1 : ScatterDims S8192 S65536x1 S65536 where
  updateWindowDims := []
  insertedWindowDims := [0]
  scatterDimsToOperandDims := [0]
  indexVectorDim := 1
  wf := scatter_S8192_S65536x1_S65536_n_0_0_1_wf
def scatter_S8192x3_S65536x1_S65536x3_1_0_0_1 : ScatterDims S8192x3 S65536x1 S65536x3 where
  updateWindowDims := [1]
  insertedWindowDims := [0]
  scatterDimsToOperandDims := [0]
  indexVectorDim := 1
  wf := scatter_S8192x3_S65536x1_S65536x3_1_0_0_1_wf
def gather_S8192x3_S65536x1_S65536x3_1_0_n_n_0_1_13 : GatherDims S8192x3 S65536x1 S65536x3 where
  offsetDims := [1]
  collapsedSliceDims := [0]
  operandBatchingDims := []
  startIndicesBatchingDims := []
  startIndexMap := [0]
  indexVectorDim := 1
  sliceSizes := ![1, 3]
  wf := gather_S8192x3_S65536x1_S65536x3_1_0_n_n_0_1_13_wf
def scatter_S10x1024_S2_S4x512_01_n_01_0 : ScatterDims S10x1024 S2 S4x512 where
  updateWindowDims := [0, 1]
  insertedWindowDims := []
  scatterDimsToOperandDims := [0, 1]
  indexVectorDim := 0
  wf := scatter_S10x1024_S2_S4x512_01_n_01_0_wf
def scatter_S10x1024_S2_S6x512_01_n_01_0 : ScatterDims S10x1024 S2 S6x512 where
  updateWindowDims := [0, 1]
  insertedWindowDims := []
  scatterDimsToOperandDims := [0, 1]
  indexVectorDim := 0
  wf := scatter_S10x1024_S2_S6x512_01_n_01_0_wf
def dot_S2048x10_S10x1024_S2048x1024_1_0_0_1_n_n : DotDims S2048x10 S10x1024 S2048x1024 where
  lhsContracting := [1]
  rhsContracting := [0]
  lhsNonContracting := [0]
  rhsNonContracting := [1]
  lhsBatch := []
  rhsBatch := []
  wf := dot_S2048x10_S10x1024_S2048x1024_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v43) S2048x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v54) S10x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v56) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v57) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v59) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v58) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v60) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v61_0) S2048x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v61_1) S2048x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4x16384x3 : Shape := ⟨3, ![4, 16384, 3]⟩
abbrev S4x16384x512 : Shape := ⟨3, ![4, 16384, 512]⟩
abbrev S4x16384 : Shape := ⟨2, ![4, 16384]⟩
abbrev S4x512 : Shape := ⟨2, ![4, 512]⟩
abbrev S512 : Shape := ⟨1, ![512]⟩
abbrev S512x512 : Shape := ⟨2, ![512, 512]⟩
abbrev S6x512 : Shape := ⟨2, ![6, 512]⟩
abbrev S4 : Shape := ⟨1, ![4]⟩
abbrev S4x1 : Shape := ⟨2, ![4, 1]⟩
abbrev S_ : Shape := ⟨0, ![]⟩
abbrev S65536 : Shape := ⟨1, ![65536]⟩
abbrev S65536x3 : Shape := ⟨2, ![65536, 3]⟩
abbrev S65536x512 : Shape := ⟨2, ![65536, 512]⟩
abbrev S8192 : Shape := ⟨1, ![8192]⟩
abbrev S65536x1 : Shape := ⟨2, ![65536, 1]⟩
abbrev S8192x1 : Shape := ⟨2, ![8192, 1]⟩
abbrev S8192x3 : Shape := ⟨2, ![8192, 3]⟩
abbrev S65536x4 : Shape := ⟨2, ![65536, 4]⟩
abbrev S1x512 : Shape := ⟨2, ![1, 512]⟩
abbrev S65536x6 : Shape := ⟨2, ![65536, 6]⟩

abbrev nBuf : Space → Nat
  | .hbm => 96
  | .vmem => 0
  | .smem => 0
  | _ => 0

abbrev bufTy : (tb : Table) → Fin (tcTables nBuf tb) → BufTy
  | .hbm, ⟨0, _⟩ => ⟨S4x16384x3, .f32⟩
  | .hbm, ⟨1, _⟩ => ⟨S4x16384x512, .f32⟩
  | .hbm, ⟨2, _⟩ => ⟨S4x16384, .i32⟩
  | .hbm, ⟨3, _⟩ => ⟨S4x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S6x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S4, .i32⟩
  | .hbm, ⟨12, _⟩ => ⟨S4x1, .i32⟩
  | .hbm, ⟨13, _⟩ => ⟨S_, .i32⟩
  | .hbm, ⟨14, _⟩ => ⟨S4x1, .i32⟩
  | .hbm, ⟨15, _⟩ => ⟨S4x1, .i32⟩
  | .hbm, ⟨16, _⟩ => ⟨S4x16384, .i32⟩
  | .hbm, ⟨17, _⟩ => ⟨S4x16384, .i32⟩
  | .hbm, ⟨18, _⟩ => ⟨S65536, .i32⟩
  | .hbm, ⟨19, _⟩ => ⟨S65536x3, .f32⟩
  | .hbm, ⟨20, _⟩ => ⟨S65536x512, .f32⟩
  | .hbm, ⟨21, _⟩ => ⟨S_, .f32⟩
  | .hbm, ⟨22, _⟩ => ⟨S65536, .f32⟩
  | .hbm, ⟨23, _⟩ => ⟨S_, .f32⟩
  | .hbm, ⟨24, _⟩ => ⟨S8192, .f32⟩
  | .hbm, ⟨25, _⟩ => ⟨S65536x1, .i32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x3, .f32⟩
  | .hbm, ⟨34, _⟩ => ⟨S65536x1, .i32⟩
  | .hbm, ⟨35, _⟩ => ⟨S8192x3, .f32⟩
  | .hbm, ⟨36, _⟩ => ⟨S8192x3, .f32⟩
  | .hbm, ⟨37, _⟩ => ⟨S8192x3, .f32⟩
  | .hbm, ⟨38, _⟩ => ⟨S_, .i32⟩
  | .hbm, ⟨39, _⟩ => ⟨S65536, .i32⟩
  | .hbm, ⟨40, _⟩ => ⟨S65536, .i1⟩
  | .hbm, ⟨41, _⟩ => ⟨S_, .i32⟩
  | .hbm, ⟨42, _⟩ => ⟨S65536, .i32⟩
  | .hbm, ⟨43, _⟩ => ⟨S65536, .i32⟩
  | .hbm, ⟨44, _⟩ => ⟨S65536, .i32⟩
  | .hbm, ⟨45, _⟩ => ⟨S65536x1, .i32⟩
  | .hbm, ⟨46, _⟩ => ⟨S65536x3, .f32⟩
  | .hbm, ⟨47, _⟩ => ⟨S65536x3, .f32⟩
  | .hbm, ⟨48, _⟩ => ⟨S65536x3, .f32⟩
  | .hbm, ⟨49, _⟩ => ⟨S_, .f32⟩
  | .hbm, ⟨50, _⟩ => ⟨S65536, .f32⟩
  | .hbm, ⟨51, _⟩ => ⟨S65536x1, .f32⟩
  | .hbm, ⟨52, _⟩ => ⟨S65536x1, .f32⟩
  | .hbm, ⟨53, _⟩ => ⟨S65536x4, .f32⟩
  | .hbm, ⟨54, _⟩ => ⟨S65536x512, .f32⟩
  | .hbm, ⟨55, _⟩ => ⟨S1x512, .f32⟩
  | .hbm, ⟨56, _⟩ => ⟨S65536x512, .f32⟩
  | .hbm, ⟨57, _⟩ => ⟨S65536x512, .f32⟩
  | .hbm, ⟨58, _⟩ => ⟨S_, .f32⟩
  | .hbm, ⟨59, _⟩ => ⟨S65536x512, .f32⟩
  | .hbm, ⟨60, _⟩ => ⟨S65536x512, .f32⟩
  | .hbm, ⟨61, _⟩ => ⟨S65536x512, .f32⟩
  | .hbm, ⟨62, _⟩ => ⟨S1x512, .f32⟩
  | .hbm, ⟨63, _⟩ => ⟨S65536x512, .f32⟩
  | .hbm, ⟨64, _⟩ => ⟨S65536x512, .f32⟩
  | .hbm, ⟨65, _⟩ => ⟨S65536x512, .f32⟩
  | .hbm, ⟨66, _⟩ => ⟨S_, .f32⟩
  | .hbm, ⟨67, _⟩ => ⟨S8192x3, .f32⟩
  | .hbm, ⟨68, _⟩ => ⟨S65536x1, .i32⟩
  | .hbm, ⟨69, _⟩ => ⟨S8192x3, .f32⟩
  | .hbm, ⟨70, _⟩ => ⟨S8192x3, .f32⟩
  | .hbm, ⟨71, _⟩ => ⟨S8192x3, .f32⟩
  | .hbm, ⟨72, _⟩ => ⟨S_, .i32⟩
  | .hbm, ⟨73, _⟩ => ⟨S65536, .i32⟩
  | .hbm, ⟨74, _⟩ => ⟨S65536, .i1⟩
  | .hbm, ⟨75, _⟩ => ⟨S_, .i32⟩
  | .hbm, ⟨76, _⟩ => ⟨S65536, .i32⟩
  | .hbm, ⟨77, _⟩ => ⟨S65536, .i32⟩
  | .hbm, ⟨78, _⟩ => ⟨S65536, .i32⟩
  | .hbm, ⟨79, _⟩ => ⟨S65536x1, .i32⟩
  | .hbm, ⟨80, _⟩ => ⟨S65536x3, .f32⟩
  | .hbm, ⟨81, _⟩ => ⟨S65536x6, .f32⟩
  | .hbm, ⟨82, _⟩ => ⟨S65536x512, .f32⟩
  | .hbm, ⟨83, _⟩ => ⟨S1x512, .f32⟩
  | .hbm, ⟨84, _⟩ => ⟨S65536x512, .f32⟩
  | .hbm, ⟨85, _⟩ => ⟨S65536x512, .f32⟩
  | .hbm, ⟨86, _⟩ => ⟨S_, .f32⟩
  | .hbm, ⟨87, _⟩ => ⟨S65536x512, .f32⟩
  | .hbm, ⟨88, _⟩ => ⟨S65536x512, .f32⟩
  | .hbm, ⟨89, _⟩ => ⟨S65536x512, .f32⟩
  | .hbm, ⟨90, _⟩ => ⟨S1x512, .f32⟩
  | .hbm, ⟨91, _⟩ => ⟨S65536x512, .f32⟩
  | .hbm, ⟨92, _⟩ => ⟨S65536x512, .f32⟩
  | .hbm, ⟨93, _⟩ => ⟨S65536x512, .f32⟩
  | .hbm, ⟨94, _⟩ => ⟨S4x16384x512, .f32⟩
  | .hbm, ⟨95, _⟩ => ⟨S4x16384x512, .f32⟩
  | _, _ => ⟨S4x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call1_v0 : Ref sig .tc := ⟨.hbm, 48, rfl⟩
abbrev main_call1_cst : Ref sig .tc := ⟨.hbm, 49, rfl⟩
abbrev main_call1_v1 : Ref sig .tc := ⟨.hbm, 50, rfl⟩
abbrev main_call1_v2 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call2_cst : Ref sig .tc := ⟨.hbm, 58, rfl⟩
abbrev main_call2_v0 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_5 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_6 : Ref sig .tc := ⟨.hbm, 72, rfl⟩
abbrev main_v45 : Ref sig .tc := ⟨.hbm, 73, rfl⟩
abbrev main_v46 : Ref sig .tc := ⟨.hbm, 74, rfl⟩
abbrev main_c_7 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_call3_cst : Ref sig .tc := ⟨.hbm, 86, rfl⟩
abbrev main_call3_v0 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩

abbrev nD : Nat := 1
abbrev τ : Topo := Topo.v7x

variable {F : FTy → Type} [FloatOps F]

class Facts₀ : Prop where
  bcast_S4_S4x1_0 : S4.BroadcastsInDim S4x1 (![0] : Fin 1 → Fin S4x1.rank)
  bcast_S_S4x1 : S_.BroadcastsInDim S4x1 (![] : Fin 0 → Fin S4x1.rank)
  bcast_S4x1_S4x16384_0_1 : S4x1.BroadcastsInDim S4x16384 (![0, 1] : Fin 2 → Fin S4x16384.rank)
  shapeCasts_S4x16384_S65536 : S4x16384.ShapeCasts S65536
  shapeCasts_S4x16384x3_S65536x3 : S4x16384x3.ShapeCasts S65536x3
  shapeCasts_S4x16384x512_S65536x512 : S4x16384x512.ShapeCasts S65536x512
  bcast_S_S65536 : S_.BroadcastsInDim S65536 (![] : Fin 0 → Fin S65536.rank)
  bcast_S_S8192 : S_.BroadcastsInDim S8192 (![] : Fin 0 → Fin S8192.rank)
  bcast_S65536_S65536x1_0 : S65536.BroadcastsInDim S65536x1 (![0] : Fin 1 → Fin S65536x1.rank)
  bcast_S8192_S8192x1_0 : S8192.BroadcastsInDim S8192x1 (![0] : Fin 1 → Fin S8192x1.rank)
  bcast_S_S8192x3 : S_.BroadcastsInDim S8192x3 (![] : Fin 0 → Fin S8192x3.rank)
  bcast_S8192x1_S8192x3_0_1 : S8192x1.BroadcastsInDim S8192x3 (![0, 1] : Fin 2 → Fin S8192x3.rank)
  reducesTo_S65536x3_S65536_d1 : S65536x3.ReducesTo [1] S65536
  h_S_ : 0 < S_.numel
  concatenates_S65536x3_S65536x1_S65536x4_d1 : Shape.Concatenates [S65536x3, S65536x1] S65536x4 1
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  concatenates_S65536x3_S65536x3_S65536x6_d1 : Shape.Concatenates [S65536x3, S65536x3] S65536x6 1
  shapeCasts_S65536x512_S4x16384x512 : S65536x512.ShapeCasts S4x16384x512
  scatter_S8192_S65536x1_S65536_n_0_0_1_wf : ScatterDims.WF S8192 S65536x1 S65536 [] [0] [0] 1
  scatter_S8192x3_S65536x1_S65536x3_1_0_0_1_wf : ScatterDims.WF S8192x3 S65536x1 S65536x3 [1] [0] [0] 1
  gather_S8192x3_S65536x1_S65536x3_1_0_n_n_0_1_13_wf : GatherDims.WF S8192x3 S65536x1 S65536x3 [1] [0] [] [0] [] 1 ![1, 3]
  dot_S65536x4_S4x512_S65536x512_1_0_0_1_n_n_wf : DotDims.WF S65536x4 S4x512 S65536x512 [1] [0] [0] [1] [] []
  dot_S65536x512_S512x512_S65536x512_1_0_0_1_n_n_wf : DotDims.WF S65536x512 S512x512 S65536x512 [1] [0] [0] [1] [] []
  dot_S65536x6_S6x512_S65536x512_1_0_0_1_n_n_wf : DotDims.WF S65536x6 S6x512 S65536x512 [1] [0] [0] [1] [] []

variable [Facts₀]

def scatter_S8192_S65536x1_S65536_n_0_0_1 : ScatterDims S8192 S65536x1 S65536 where
  updateWindowDims := []
  insertedWindowDims := [0]
  scatterDimsToOperandDims := [0]
  indexVectorDim := 1
  wf := scatter_S8192_S65536x1_S65536_n_0_0_1_wf
def scatter_S8192x3_S65536x1_S65536x3_1_0_0_1 : ScatterDims S8192x3 S65536x1 S65536x3 where
  updateWindowDims := [1]
  insertedWindowDims := [0]
  scatterDimsToOperandDims := [0]
  indexVectorDim := 1
  wf := scatter_S8192x3_S65536x1_S65536x3_1_0_0_1_wf
def gather_S8192x3_S65536x1_S65536x3_1_0_n_n_0_1_13 : GatherDims S8192x3 S65536x1 S65536x3 where
  offsetDims := [1]
  collapsedSliceDims := [0]
  operandBatchingDims := []
  startIndicesBatchingDims := []
  startIndexMap := [0]
  indexVectorDim := 1
  sliceSizes := ![1, 3]
  wf := gather_S8192x3_S65536x1_S65536x3_1_0_n_n_0_1_13_wf
def dot_S65536x4_S4x512_S65536x512_1_0_0_1_n_n : DotDims S65536x4 S4x512 S65536x512 where
  lhsContracting := [1]
  rhsContracting := [0]
  lhsNonContracting := [0]
  rhsNonContracting := [1]
  lhsBatch := []
  rhsBatch := []
  wf := dot_S65536x4_S4x512_S65536x512_1_0_0_1_n_n_wf
def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def dot_S65536x6_S6x512_S65536x512_1_0_0_1_n_n : DotDims S65536x6 S6x512 S65536x512 where
  lhsContracting := [1]
  rhsContracting := [0]
  lhsNonContracting := [0]
  rhsNonContracting := [1]
  lhsBatch := []
  rhsBatch := []
  wf := dot_S65536x6_S6x512_S65536x512_1_0_0_1_n_n_wf

class Facts : Prop extends Facts₀ where

variable [Facts]
-- ==== Proof.LibDotPlain.lean ====
/-
  A plain matrix product, read at an entry.

  When an [M, K] operand is contracted with a [K, N] operand along the second axis of the first and the first axis of
  the second — the product A · B — the entry (i, j) of the [M, N] result is the sum over k of A (i, k) times B (k, j).
  The contraction's own index type is re-indexed by its one coordinate; the four coordinate facts about the dimension
  numbers are hypotheses, each a computation at literal dimension numbers.
-/
import Idealize.ShloMosaic.PureOps.Ideal
import Idealize.ShloMosaic.Lib.ValueIdx

noncomputable section

open scoped BigOperators

namespace Cert.Lib.DotPlain

open Idealize.ShloMosaic Idealize.ShloMosaic.ValueIdx

/-- A contraction of an [M, K] by a [K, N] operand along the inner axes, at (i, j): the sum over k of
    left (i, k) times right (k, j). -/
theorem dot_sum_nn {M K N : Nat} (d : DotDims ⟨2, ![M, K]⟩ ⟨2, ![K, N]⟩ ⟨2, ![M, N]⟩) (hr : d.contr.rank = 1)
    (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : (⟨2, ![M, K]⟩ : Shape).Idx → EReal) (rhs : (⟨2, ![K, N]⟩ : Shape).Idx → EReal) (i : Fin M) (j : Fin N) :
    ∑ k : d.contr.Idx, lhs (d.lhsIdx (ix2 i j) k) * rhs (d.rhsIdx (ix2 i j) k) = ∑ k : Fin K, lhs (ix2 i k) * rhs (ix2 k j) := by
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact hl0 _ _
    | ⟨1, _⟩ => exact (hl1 _ _).trans hk)
  have er : d.rhsIdx (ix2 i j) ((contrEquiv1 d K hr hs).symm k) = ix2 k j := funext fun a => Fin.ext (by
    match a with
    | ⟨0, _⟩ => exact (hr0 _ _).trans hk
    | ⟨1, _⟩ => exact hr1 _ _)
  rw [el, er]

end Cert.Lib.DotPlain

end
-- ==== Proof.KernelBody.lean ====
import proofs.«109030_j74586402062456_2_alg».proof.Proof.Gen.KernelIdeal.Skeleton
import proofs.«109030_j74586402062456_2_alg».proof.Proof.LibDotPlain
import Idealize.ShloMosaic.Lib.ValueIdx
import Idealize.ShloMosaic.Lib.Pipeline.Value
import Idealize.ShloMosaic.Lib.ValueLayout
import Idealize.ShloMosaic.PureOps.Ideal.Laws

/-!
  The kernel body's two stored values, read at an entry, on the extended reals.

  One grid point holds a block of 2048 rows.  With x the [2048, 10] block of joined features, W the [10, 1024] joined
  first-layer weights, c the [1, 1024] joined first-layer bias, the hidden layer is
      h (p, j) = max (sum over k < 10 of x (p, k) * W (k, j) + c (0, j)) 0,
  and the two outputs are, for the left half of the hidden layer and the second-layer pair (A, a), and for the right half
  and the pair (B, b),
      f (p, q) + (sum over k < 512 of h (p, k) * A (k, q) + a (0, q)),
      f (p, q) + (sum over k < 512 of h (p, 512 + k) * B (k, q) + b (0, q)).
  A change of float format is the identity on the extended reals, and a product accumulated into a zero block is the
  plain sum.
-/

noncomputable section

namespace Cert.KernelIdeal.Body

open Cert.KernelIdeal Cert.KernelIdeal.Gen Idealize.ShloMosaic Idealize.ShloMosaic.ValueIdx
open scoped BigOperators

/-- The first-layer product at (p, j): the sum over the ten joined features. -/
theorem first_dot (x : S2048x10.Idx → EReal) (W : S10x1024.Idx → EReal) (p : Fin 2048) (j : Fin 1024) :
    ∑ k : dot_S2048x10_S10x1024_S2048x1024_1_0_0_1_n_n.contr.Idx,
        x (dot_S2048x10_S10x1024_S2048x1024_1_0_0_1_n_n.lhsIdx (ix2 p j) k) * W (dot_S2048x10_S10x1024_S2048x1024_1_0_0_1_n_n.rhsIdx (ix2 p j) k)
      = ∑ k : Fin 10, x (ix2 p k) * W (ix2 k j) :=
  Cert.Lib.DotPlain.dot_sum_nn dot_S2048x10_S10x1024_S2048x1024_1_0_0_1_n_n rfl rfl
    (fun i q => by
      unfold DotDims.lhsIdx
      rw [dif_neg (show ¬(0 : Fin S2048x10.rank) ∈ dot_S2048x10_S10x1024_S2048x1024_1_0_0_1_n_n.lhsBatch by decide),
        dif_pos (show (0 : Fin S2048x10.rank) ∈ dot_S2048x10_S10x1024_S2048x1024_1_0_0_1_n_n.lhsNonContracting by decide)]
      rfl)
    (fun i q => dot_S2048x10_S10x1024_S2048x1024_1_0_0_1_n_n.lhsIdx_val_of_single rfl i q)
    (fun i q => dot_S2048x10_S10x1024_S2048x1024_1_0_0_1_n_n.rhsIdx_val_of_single rfl i q)
    (fun i q => by
      unfold DotDims.rhsIdx
      rw [dif_neg (show ¬(1 : Fin S10x1024.rank) ∈ dot_S2048x10_S10x1024_S2048x1024_1_0_0_1_n_n.rhsBatch by decide),
        dif_pos (show (1 : Fin S10x1024.rank) ∈ dot_S2048x10_S10x1024_S2048x1024_1_0_0_1_n_n.rhsNonContracting by decide)]
      rfl)
    x W p j

/-- A second-layer product at (p, q): the sum over the 512 hidden units of one half. -/
theorem second_dot (h : S2048x512.Idx → EReal) (A : S512x512.Idx → EReal) (p : Fin 2048) (q : Fin 512) :
    ∑ k : dot_S2048x512_S512x512_S2048x512_1_0_0_1_n_n.contr.Idx,
        h (dot_S2048x512_S512x512_S2048x512_1_0_0_1_n_n.lhsIdx (ix2 p q) k) * A (dot_S2048x512_S512x512_S2048x512_1_0_0_1_n_n.rhsIdx (ix2 p q) k)
      = ∑ k : Fin 512, h (ix2 p k) * A (ix2 k q) :=
  Cert.Lib.DotPlain.dot_sum_nn dot_S2048x512_S512x512_S2048x512_1_0_0_1_n_n rfl rfl
    (fun i q => by
      unfold DotDims.lhsIdx
      rw [dif_neg (show ¬(0 : Fin S2048x512.rank) ∈ dot_S2048x512_S512x512_S2048x512_1_0_0_1_n_n.lhsBatch by decide),
        dif_pos (show (0 : Fin S2048x512.rank) ∈ dot_S2048x512_S512x512_S2048x512_1_0_0_1_n_n.lhsNonContracting by decide)]
      rfl)
    (fun i q => dot_S2048x512_S512x512_S2048x512_1_0_0_1_n_n.lhsIdx_val_of_single rfl i q)
    (fun i q => dot_S2048x512_S512x512_S2048x512_1_0_0_1_n_n.rhsIdx_val_of_single rfl i q)
    (fun i q => by
      unfold DotDims.rhsIdx
      rw [dif_neg (show ¬(1 : Fin S512x512.rank) ∈ dot_S2048x512_S512x512_S2048x512_1_0_0_1_n_n.rhsBatch by decide),
        dif_pos (show (1 : Fin S512x512.rank) ∈ dot_S2048x512_S512x512_S2048x512_1_0_0_1_n_n.rhsNonContracting by decide)]
      rfl)
    h A p q

/-- The hidden layer at (p, j). -/
theorem hidden_apply (x : Vec Ideal S2048x10 .f32) (W : Vec Ideal S10x1024 .bf16) (c : Vec Ideal S1x1024 .f32)
    (p : Fin 2048) (j : Fin 1024) :
    k0_pay2 (F := Ideal) x W c (ix2 p j) = max (∑ k : Fin 10, x (ix2 p k) * W (ix2 k j) + c (ix2 (0 : Fin 1) j)) 0 := by
  unfold k0_pay2
  simp only [maximumf_apply, addf_apply, matmul, Ideal.matmul_constant_zero_apply, broadcast_apply, shapeCast_self,
    broadcastTo_1b_ab_apply, truncf_apply, first_dot]
  show max _ (Ideal.ofBits .f32 0x00000000#32) = _
  rw [Ideal.ofBits_zero_f32]

/-- The left half of a [2048, 1024] block at (p, k). -/
theorem left_half (h : S2048x1024.Idx → EReal) (p : Fin 2048) (k : Fin 512) :
    extractStridedSlice S2048x512 ![0, 0] h slices_S2048x1024_o0_0_S2048x512 (ix2 p k)
      = h (ix2 p (⟨k.val, by have := k.isLt; omega⟩ : Fin 1024)) :=
  extractStridedSlice_apply _ h _ _ _ (fun a => by
    match a with
    | ⟨0, _⟩ => show p.val = 0 + p.val; omega
    | ⟨1, _⟩ => show k.val = 0 + k.val; omega)

/-- The right half of a [2048, 1024] block at (p, k). -/
theorem right_half (h : S2048x1024.Idx → EReal) (p : Fin 2048) (k : Fin 512) :
    extractStridedSlice S2048x512 ![0, 512] h slices_S2048x1024_o0_512_S2048x512 (ix2 p k)
      = h (ix2 p (⟨512 + k.val, by have := k.isLt; omega⟩ : Fin 1024)) :=
  extractStridedSlice_apply _ h _ _ _ (fun a => by
    match a with
    | ⟨0, _⟩ => show p.val = 0 + p.val; omega
    | ⟨1, _⟩ => show 512 + k.val = 512 + k.val; rfl)

/-- The first output at (p, q). -/
theorem out_pos_apply (f : Vec Ideal S2048x512 .f32) (x : Vec Ideal S2048x10 .f32) (W : Vec Ideal S10x1024 .bf16)
    (c : Vec Ideal S1x1024 .f32) (A : Vec Ideal S512x512 .bf16) (a : Vec Ideal S1x512 .f32) (p : Fin 2048) (q : Fin 512) :
    k0_pay3 (F := Ideal) f x W c A a (ix2 p q)
      = f (ix2 p q) + (∑ k : Fin 512, max (∑ j : Fin 10, x (ix2 p j) * W (ix2 j (⟨k.val, by have := k.isLt; omega⟩ : Fin 1024))
            + c (ix2 (0 : Fin 1) (⟨k.val, by have := k.isLt; omega⟩ : Fin 1024))) 0 * A (ix2 k q) + a (ix2 (0 : Fin 1) q)) := by
  unfold k0_pay3 k0_pay1
  simp only [addf_apply, matmul, Ideal.matmul_constant_zero_apply, shapeCast_self, broadcastTo_1b_ab_apply, truncf_apply,
    second_dot, left_half, hidden_apply]

/-- The second output at (p, q). -/
theorem out_geo_apply (f : Vec Ideal S2048x512 .f32) (x : Vec Ideal S2048x10 .f32) (W : Vec Ideal S10x1024 .bf16)
    (c : Vec Ideal S1x1024 .f32) (B : Vec Ideal S512x512 .bf16) (b : Vec Ideal S1x512 .f32) (p : Fin 2048) (q : Fin 512) :
    k0_pay4 (F := Ideal) f x W c B b (ix2 p q)
      = f (ix2 p q) + (∑ k : Fin 512, max (∑ j : Fin 10, x (ix2 p j) * W (ix2 j (⟨512 + k.val, by have := k.isLt; omega⟩ : Fin 1024))
            + c (ix2 (0 : Fin 1) (⟨512 + k.val, by have := k.isLt; omega⟩ : Fin 1024))) 0 * B (ix2 k q) + b (ix2 (0 : Fin 1) q)) := by
  unfold k0_pay4 k0_pay1
  simp only [addf_apply, matmul, Ideal.matmul_constant_zero_apply, shapeCast_self, broadcastTo_1b_ab_apply, truncf_apply,
    second_dot, right_half, hidden_apply]

end Cert.KernelIdeal.Body

end
-- ==== Proof.Spec.lean ====
import Idealize.ShloMosaic.PureOps.Ideal
import Idealize.ShloMosaic.Lib.ValueIdx

/-!
  The two results as functions of eight arrays, entry by entry, on the extended reals.

  X is the [65536, 10] array of joined features, f the [65536, 512] flattened feature array, W the [10, 1024] joined
  first-layer weights, c the [1, 1024] joined first-layer bias, (A, a) and (B, b) the two second-layer pairs.  The hidden
  layer is h (r, j) = max (sum over i < 10 of X (r, i) * W (i, j) + c (0, j)) 0; the first result adds to f the second
  layer (A, a) applied to the left half of h, the second result the second layer (B, b) applied to the right half.
-/

noncomputable section

namespace Cert.Spec

open Idealize.ShloMosaic Idealize.ShloMosaic.ValueIdx
open scoped BigOperators

/-- Column k of the left half of the hidden layer. -/
abbrev lo (k : Fin 512) : Fin 1024 := ⟨k.val, by have := k.isLt; omega⟩
/-- Column k of the right half of the hidden layer. -/
abbrev hi (k : Fin 512) : Fin 1024 := ⟨512 + k.val, by have := k.isLt; omega⟩

/-- The first result at row r, column q. -/
def posAt (X : (⟨2, ![65536, 10]⟩ : Shape).Idx → EReal) (f : (⟨2, ![65536, 512]⟩ : Shape).Idx → EReal)
    (W : (⟨2, ![10, 1024]⟩ : Shape).Idx → EReal) (c : (⟨2, ![1, 1024]⟩ : Shape).Idx → EReal)
    (A : (⟨2, ![512, 512]⟩ : Shape).Idx → EReal) (a : (⟨2, ![1, 512]⟩ : Shape).Idx → EReal) (r : Fin 65536) (q : Fin 512) : EReal :=
  f (ix2 r q) + (∑ k : Fin 512, max (∑ j : Fin 10, X (ix2 r j) * W (ix2 j (lo k)) + c (ix2 (0 : Fin 1) (lo k))) 0 * A (ix2 k q)
    + a (ix2 (0 : Fin 1) q))

/-- The second result at row r, column q. -/
def geoAt (X : (⟨2, ![65536, 10]⟩ : Shape).Idx → EReal) (f : (⟨2, ![65536, 512]⟩ : Shape).Idx → EReal)
    (W : (⟨2, ![10, 1024]⟩ : Shape).Idx → EReal) (c : (⟨2, ![1, 1024]⟩ : Shape).Idx → EReal)
    (B : (⟨2, ![512, 512]⟩ : Shape).Idx → EReal) (b : (⟨2, ![1, 512]⟩ : Shape).Idx → EReal) (r : Fin 65536) (q : Fin 512) : EReal :=
  f (ix2 r q) + (∑ k : Fin 512, max (∑ j : Fin 10, X (ix2 r j) * W (ix2 j (hi k)) + c (ix2 (0 : Fin 1) (hi k))) 0 * B (ix2 k q)
    + b (ix2 (0 : Fin 1) q))

/-- The first result array. -/
def GPos (X : (⟨2, ![65536, 10]⟩ : Shape).Idx → EReal) (f : (⟨2, ![65536, 512]⟩ : Shape).Idx → EReal)
    (W : (⟨2, ![10, 1024]⟩ : Shape).Idx → EReal) (c : (⟨2, ![1, 1024]⟩ : Shape).Idx → EReal)
    (A : (⟨2, ![512, 512]⟩ : Shape).Idx → EReal) (a : (⟨2, ![1, 512]⟩ : Shape).Idx → EReal) :
    (⟨2, ![65536, 512]⟩ : Shape).Idx → EReal :=
  fun i => posAt X f W c A a ⟨(i 0).val, (i 0).isLt⟩ ⟨(i 1).val, (i 1).isLt⟩

/-- The second result array. -/
def GGeo (X : (⟨2, ![65536, 10]⟩ : Shape).Idx → EReal) (f : (⟨2, ![65536, 512]⟩ : Shape).Idx → EReal)
    (W : (⟨2, ![10, 1024]⟩ : Shape).Idx → EReal) (c : (⟨2, ![1, 1024]⟩ : Shape).Idx → EReal)
    (B : (⟨2, ![512, 512]⟩ : Shape).Idx → EReal) (b : (⟨2, ![1, 512]⟩ : Shape).Idx → EReal) :
    (⟨2, ![65536, 512]⟩ : Shape).Idx → EReal :=
  fun i => geoAt X f W c B b ⟨(i 0).val, (i 0).isLt⟩ ⟨(i 1).val, (i 1).isLt⟩

end Cert.Spec

end
-- ==== Proof.KernelArrays.lean ====
import proofs.«109030_j74586402062456_2_alg».proof.Proof.Gen.KernelIdeal.Frame
import proofs.«109030_j74586402062456_2_alg».proof.Proof.KernelBody
import proofs.«109030_j74586402062456_2_alg».proof.Proof.Spec

/-!
  From the blocks the grid points write back to the two whole output arrays.

  The grid has 32 points; point t holds rows 2048 t … 2048 t + 2047 of the joined features, of the flattened feature
  array and of both outputs, and the whole of the six weight and bias arrays.  So what point t writes back is block t
  of ONE function of the region's eight input arrays, entry by entry, and the 32 blocks tile the 65536 rows: after
  the run each output array is that function.
-/

noncomputable section

namespace Cert.KernelIdeal.Arrays

open Cert.KernelIdeal Cert.KernelIdeal.Gen Idealize.ShloMosaic Idealize.ShloMosaic.TcCoe Idealize.SL.Sem
open Idealize.ShloMosaic.ValueIdx Cert.Spec
open Idealize.ShloMosaic.Pipeline (Dat)
open scoped BigOperators

variable (m : (ℓ : Loc nD τ sig) → Buf (Elt Ideal) ℓ) (ρ : Dev nD → PrngReg)

theorem hz : (![0, 0] : Fin 2 → Nat) = fun _ => 0 := funext fun a => by fin_cases a <;> rfl

/-- The index maps over the 32 points: the row-blocked windows sit at block t, the whole-array windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- Row p of point t's block, as a row of the whole arrays. -/
def row (t : Fin cfg0.N) (p : Fin 2048) : Fin 65536 :=
  ⟨t.val * 2048 + p.val, by have ht : t.val < 32 := lt_of_lt_of_eq t.isLt N_0; have := p.isLt; omega⟩

/-! ## The input blocks, read where the output's rectangle says -/

theorem blk0 (c : Dev nD) (t : Fin cfg0.N) (p : Fin 2048) (j : Fin 10) :
    iblk m c 0 t (ix2 p j) = V m c main_v43 (ix2 (row t p) j) := by
  obtain ⟨e0, e1, -⟩ := idx_facts t
  show V m c main_v43 (((cfg0.win 0).blk t).view.emb (ix2 p j)) = V m c main_v43 (ix2 (row t p) j)
  refine congrArg _ (funext fun a => Fin.ext ?_)
  match a with
  | ⟨0, _⟩ => show win0_0.index t (0 : Fin 2) * 2048 + 1 * p.val = t.val * 2048 + p.val; omega
  | ⟨1, _⟩ => show win0_0.index t (1 : Fin 2) * 10 + 1 * j.val = j.val; omega

theorem blk1 (c : Dev nD) (t : Fin cfg0.N) (p : Fin 2048) (q : Fin 512) :
    iblk m c 1 t (ix2 p q) = V m c main_v8 (ix2 (row t p) q) := by
  obtain ⟨-, -, e0, e1, -⟩ := idx_facts t
  show V m c main_v8 (((cfg0.win 1).blk t).view.emb (ix2 p q)) = V m c main_v8 (ix2 (row t p) q)
  refine congrArg _ (funext fun a => Fin.ext ?_)
  match a with
  | ⟨0, _⟩ => show win0_1.index t (0 : Fin 2) * 2048 + 1 * p.val = t.val * 2048 + p.val; omega
  | ⟨1, _⟩ => show win0_1.index t (1 : Fin 2) * 512 + 1 * q.val = q.val; omega

theorem blk2 (c : Dev nD) (t : Fin cfg0.N) (j : Fin 10) (k : Fin 1024) :
    iblk m c 2 t (ix2 j k) = V m c main_v54 (ix2 j k) := by
  obtain ⟨-, -, -, -, e0, e1, -⟩ := idx_facts t
  show V m c main_v54 (((cfg0.win 2).blk t).view.emb (ix2 j k)) = V m c main_v54 (ix2 j k)
  refine congrArg _ (funext fun a => Fin.ext ?_)
  match a with
  | ⟨0, _⟩ => show win0_2.index t (0 : Fin 2) * 10 + 1 * j.val = j.val; omega
  | ⟨1, _⟩ => show win0_2.index t (1 : Fin 2) * 1024 + 1 * k.val = k.val; omega

theorem blk3 (c : Dev nD) (t : Fin cfg0.N) (u : Fin 1) (k : Fin 1024) :
    iblk m c 3 t (ix2 u k) = V m c main_v56 (ix2 u k) := by
  obtain ⟨-, -, -, -, -, -, e0, e1, -⟩ := idx_facts t
  show V m c main_v56 (((cfg0.win 3).blk t).view.emb (ix2 u k)) = V m c main_v56 (ix2 u k)
  refine congrArg _ (funext fun a => Fin.ext ?_)
  match a with
  | ⟨0, _⟩ => show win0_3.index t (0 : Fin 2) * 1 + 1 * u.val = u.val; omega
  | ⟨1, _⟩ => show win0_3.index t (1 : Fin 2) * 1024 + 1 * k.val = k.val; omega

theorem blk4 (c : Dev nD) (t : Fin cfg0.N) (k : Fin 512) (q : Fin 512) :
    iblk m c 4 t (ix2 k q) = V m c main_v57 (ix2 k q) := by
  obtain ⟨-, -, -, -, -, -, -, -, e0, e1, -⟩ := idx_facts t
  show V m c main_v57 (((cfg0.win 4).blk t).view.emb (ix2 k q)) = V m c main_v57 (ix2 k q)
  refine congrArg _ (funext fun a => Fin.ext ?_)
  match a with
  | ⟨0, _⟩ => show win0_4.index t (0 : Fin 2) * 512 + 1 * k.val = k.val; omega
  | ⟨1, _⟩ => show win0_4.index t (1 : Fin 2) * 512 + 1 * q.val = q.val; omega

theorem blk5 (c : Dev nD) (t : Fin cfg0.N) (u : Fin 1) (q : Fin 512) :
    iblk m c 5 t (ix2 u q) = V m c main_v59 (ix2 u q) := by
  obtain ⟨-, -, -, -, -, -, -, -, -, -, e0, e1, -⟩ := idx_facts t
  show V m c main_v59 (((cfg0.win 5).blk t).view.emb (ix2 u q)) = V m c main_v59 (ix2 u q)
  refine congrArg _ (funext fun a => Fin.ext ?_)
  match a with
  | ⟨0, _⟩ => show win0_5.index t (0 : Fin 2) * 1 + 1 * u.val = u.val; omega
  | ⟨1, _⟩ => show win0_5.index t (1 : Fin 2) * 512 + 1 * q.val = q.val; omega

theorem blk6 (c : Dev nD) (t : Fin cfg0.N) (k : Fin 512) (q : Fin 512) :
    iblk m c 6 t (ix2 k q) = V m c main_v58 (ix2 k q) := by
  obtain ⟨-, -, -, -, -, -, -, -, -, -, -, -, e0, e1, -⟩ := idx_facts t
  show V m c main_v58 (((cfg0.win 6).blk t).view.emb (ix2 k q)) = V m c main_v58 (ix2 k q)
  refine congrArg _ (funext fun a => Fin.ext ?_)
  match a with
  | ⟨0, _⟩ => show win0_6.index t (0 : Fin 2) * 512 + 1 * k.val = k.val; omega
  | ⟨1, _⟩ => show win0_6.index t (1 : Fin 2) * 512 + 1 * q.val = q.val; omega

theorem blk7 (c : Dev nD) (t : Fin cfg0.N) (u : Fin 1) (q : Fin 512) :
    iblk m c 7 t (ix2 u q) = V m c main_v60 (ix2 u q) := by
  obtain ⟨-, -, -, -, -, -, -, -, -, -, -, -, -, -, e0, e1, -⟩ := idx_facts t
  show V m c main_v60 (((cfg0.win 7).blk t).view.emb (ix2 u q)) = V m c main_v60 (ix2 u q)
  refine congrArg _ (funext fun a => Fin.ext ?_)
  match a with
  | ⟨0, _⟩ => show win0_7.index t (0 : Fin 2) * 1 + 1 * u.val = u.val; omega
  | ⟨1, _⟩ => show win0_7.index t (1 : Fin 2) * 512 + 1 * q.val = q.val; omega

/-- The first output's rectangle at point t: rows 2048 t on. -/
theorem emb8 (t : Fin cfg0.N) (p : Fin 2048) (q : Fin 512) :
    ((cfg0.win 8).blk t).view.emb (ix2 p q) = ix2 (row t p) q := by
  obtain ⟨-, -, -, -, -, -, -, -, -, -, -, -, -, -, -, -, e0, e1, -⟩ := idx_facts t
  refine funext fun a => Fin.ext ?_
  match a with
  | ⟨0, _⟩ => show win0_8.index t (0 : Fin 2) * 2048 + 1 * p.val = t.val * 2048 + p.val; omega
  | ⟨1, _⟩ => show win0_8.index t (1 : Fin 2) * 512 + 1 * q.val = q.val; omega

theorem emb9 (t : Fin cfg0.N) (p : Fin 2048) (q : Fin 512) :
    ((cfg0.win 9).blk t).view.emb (ix2 p q) = ix2 (row t p) q := by
  obtain ⟨-, -, -, -, -, -, -, -, -, -, -, -, -, -, -, -, -, -, e0, e1⟩ := idx_facts t
  refine funext fun a => Fin.ext ?_
  match a with
  | ⟨0, _⟩ => show win0_9.index t (0 : Fin 2) * 2048 + 1 * p.val = t.val * 2048 + p.val; omega
  | ⟨1, _⟩ => show win0_9.index t (1 : Fin 2) * 512 + 1 * q.val = q.val; omega

/-! ## What a point writes back -/

/-- Point t writes back block t of the first output function of the region's input arrays. -/
theorem flushed8_eq (c : Dev nD) (t : Fin cfg0.N) :
    (dats m 0 c).flushed 8 t = ((cfg0.win 8).blk t).view.read (Elt Ideal)
      (GPos (V m c main_v43) (V m c main_v8) (V m c main_v54) (V m c main_v56) (V m c main_v57) (V m c main_v59)) := by
  show (cfg0.win 8).cut (grid0.coords t) ((dats m 0 c).after 8 t) = _
  rw [after0_8]
  unfold out0_8
  rw [View.canon_unit_zero hz]
  simp only [View.ld_unit_zero (S := S2048x512) hz, View.ld_unit_zero (S := S2048x10) hz, View.ld_unit_zero (S := S10x1024) hz,
    View.ld_unit_zero (S := S1x1024) hz, View.ld_unit_zero (S := S512x512) hz, View.ld_unit_zero (S := S1x512) hz]
  funext y
  obtain ⟨p, q, rfl⟩ : ∃ (p : Fin 2048) (q : Fin 512), y = ix2 p q := ⟨y 0, y 1, eq_ix2 y⟩
  show k0_pay3 (F := Ideal) (iblk m c 1 t) (iblk m c 0 t) (iblk m c 2 t) (iblk m c 3 t) (iblk m c 4 t) (iblk m c 5 t) (ix2 p q)
    = GPos (V m c main_v43) (V m c main_v8) (V m c main_v54) (V m c main_v56) (V m c main_v57) (V m c main_v59)
        (((cfg0.win 8).blk t).view.emb (ix2 p q))
  refine (Body.out_pos_apply (iblk m c 1 t) (iblk m c 0 t) (iblk m c 2 t) (iblk m c 3 t) (iblk m c 4 t) (iblk m c 5 t) p q).trans ?_
  rw [emb8 t p q]
  show _ = posAt _ _ _ _ _ _ (row t p) q
  unfold posAt
  simp only [blk0 m c t, blk1 m c t, blk2 m c t, blk3 m c t, blk4 m c t, blk5 m c t]

/-- Point t writes back block t of the second output function of the region's input arrays. -/
theorem flushed9_eq (c : Dev nD) (t : Fin cfg0.N) :
    (dats m 0 c).flushed 9 t = ((cfg0.win 9).blk t).view.read (Elt Ideal)
      (GGeo (V m c main_v43) (V m c main_v8) (V m c main_v54) (V m c main_v56) (V m c main_v58) (V m c main_v60)) := by
  show (cfg0.win 9).cut (grid0.coords t) ((dats m 0 c).after 9 t) = _
  rw [after0_9]
  unfold out0_9
  rw [View.canon_unit_zero hz]
  simp only [View.ld_unit_zero (S := S2048x512) hz, View.ld_unit_zero (S := S2048x10) hz, View.ld_unit_zero (S := S10x1024) hz,
    View.ld_unit_zero (S := S1x1024) hz, View.ld_unit_zero (S := S512x512) hz, View.ld_unit_zero (S := S1x512) hz]
  funext y
  obtain ⟨p, q, rfl⟩ : ∃ (p : Fin 2048) (q : Fin 512), y = ix2 p q := ⟨y 0, y 1, eq_ix2 y⟩
  show k0_pay4 (F := Ideal) (iblk m c 1 t) (iblk m c 0 t) (iblk m c 2 t) (iblk m c 3 t) (iblk m c 6 t) (iblk m c 7 t) (ix2 p q)
    = GGeo (V m c main_v43) (V m c main_v8) (V m c main_v54) (V m c main_v56) (V m c main_v58) (V m c main_v60)
        (((cfg0.win 9).blk t).view.emb (ix2 p q))
  refine (Body.out_geo_apply (iblk m c 1 t) (iblk m c 0 t) (iblk m c 2 t) (iblk m c 3 t) (iblk m c 6 t) (iblk m c 7 t) p q).trans ?_
  rw [emb9 t p q]
  show _ = geoAt _ _ _ _ _ _ (row t p) q
  unfold geoAt
  simp only [blk0 m c t, blk1 m c t, blk2 m c t, blk3 m c t, blk6 m c t, blk7 m c t]

/-! ## The blocks tile the rows -/

theorem mem_blk8 (t : Fin cfg0.N) (i : S65536x512.Idx) :
    i ∈ ((cfg0.win 8).blk t).view.set ↔ ∀ a : Fin 2, win0_8.index t a * S2048x512.size a ≤ (i a).val ∧ (i a).val < win0_8.index t a * S2048x512.size a + S2048x512.size a := by
  show i ∈ ((View.whole main_v61_0).slice (win0_8.rect t)).set ↔ _
  rw [View.set_slice_whole, Rect.mem_set_unit]
  exact Iff.rfl

theorem mem_blk9 (t : Fin cfg0.N) (i : S65536x512.Idx) :
    i ∈ ((cfg0.win 9).blk t).view.set ↔ ∀ a : Fin 2, win0_9.index t a * S2048x512.size a ≤ (i a).val ∧ (i a).val < win0_9.index t a * S2048x512.size a + S2048x512.size a := by
  show i ∈ ((View.whole main_v61_1).slice (win0_9.rect t)).set ↔ _
  rw [View.set_slice_whole, Rect.mem_set_unit]
  exact Iff.rfl

/-- Row r lies in the block of point r / 2048. -/
theorem cover8 (i : S65536x512.Idx) : ∃ t : Fin cfg0.N, (cfg0.win 8).flush t = true ∧ i ∈ ((cfg0.win 8).blk t).view.set := by
  have hi0 : (i 0).val < 65536 := (i 0).isLt
  have hi1 : (i 1).val < 512 := (i 1).isLt
  refine ⟨⟨(i 0).val / 2048, by show _ < 32; omega⟩, flush0_8 _, ?_⟩
  obtain ⟨-, -, -, -, -, -, -, -, -, -, -, -, -, -, -, -, e0, e1, -⟩ := idx_facts ⟨(i 0).val / 2048, by show _ < 32; omega⟩
  rw [mem_blk8]
  intro a
  match a with
  | ⟨0, _⟩ =>
    show win0_8.index _ (0 : Fin 2) * 2048 ≤ (i 0).val ∧ (i 0).val < win0_8.index _ (0 : Fin 2) * 2048 + 2048
    rw [e0]; show (i 0).val / 2048 * 2048 ≤ (i 0).val ∧ (i 0).val < (i 0).val / 2048 * 2048 + 2048; omega
  | ⟨1, _⟩ =>
    show win0_8.index _ (1 : Fin 2) * 512 ≤ (i 1).val ∧ (i 1).val < win0_8.index _ (1 : Fin 2) * 512 + 512
    rw [e1]; omega

theorem cover9 (i : S65536x512.Idx) : ∃ t : Fin cfg0.N, (cfg0.win 9).flush t = true ∧ i ∈ ((cfg0.win 9).blk t).view.set := by
  have hi0 : (i 0).val < 65536 := (i 0).isLt
  have hi1 : (i 1).val < 512 := (i 1).isLt
  refine ⟨⟨(i 0).val / 2048, by show _ < 32; omega⟩, flush0_9 _, ?_⟩
  obtain ⟨-, -, -, -, -, -, -, -, -, -, -, -, -, -, -, -, -, -, e0, e1⟩ := idx_facts ⟨(i 0).val / 2048, by show _ < 32; omega⟩
  rw [mem_blk9]
  intro a
  match a with
  | ⟨0, _⟩ =>
    show win0_9.index _ (0 : Fin 2) * 2048 ≤ (i 0).val ∧ (i 0).val < win0_9.index _ (0 : Fin 2) * 2048 + 2048
    rw [e0]; show (i 0).val / 2048 * 2048 ≤ (i 0).val ∧ (i 0).val < (i 0).val / 2048 * 2048 + 2048; omega
  | ⟨1, _⟩ =>
    show win0_9.index _ (1 : Fin 2) * 512 ≤ (i 1).val ∧ (i 1).val < win0_9.index _ (1 : Fin 2) * 512 + 512
    rw [e1]; omega

/-- After the run the first output array is the first output function of the region's input arrays. -/
theorem final8 (c : Dev nD) : (dats m 0 c).arrAt 8 cfg0.N
    = GPos (V m c main_v43) (V m c main_v8) (V m c main_v54) (V m c main_v56) (V m c main_v57) (V m c main_v59) :=
  (dats m 0 c).arrAt_eq_of_cover 8 _ (fun t _ => flushed8_eq m c t) cover8

/-- After the run the second output array is the second output function of the region's input arrays. -/
theorem final9 (c : Dev nD) : (dats m 0 c).arrAt 9 cfg0.N
    = GGeo (V m c main_v43) (V m c main_v8) (V m c main_v54) (V m c main_v56) (V m c main_v58) (V m c main_v60) :=
  (dats m 0 c).arrAt_eq_of_cover 9 _ (fun t _ => flushed9_eq m c t) cover9

end Cert.KernelIdeal.Arrays

end
-- ==== Proof.KernelRun.lean ====
import proofs.«109030_j74586402062456_2_alg».proof.Proof.Gen.KernelIdeal.Frame
import proofs.«109030_j74586402062456_2_alg».proof.Proof.KernelArrays
import Idealize.ShloMosaic.Lib.StableHlo.Run

/-!
  The kernel program's run, with its two results named.

  After the region the program re-lays each [65536, 512] output array as [4, 16384, 512].  So every weakly fair
  execution ends with each result the re-laid output function of the region's input arrays, and the arguments as
  launched.
-/

noncomputable section

namespace Cert.KernelIdeal.RunSide

open Cert.KernelIdeal Cert.KernelIdeal.Gen Idealize.ShloMosaic Idealize.ShloMosaic.TcCoe Idealize.SL.Sem
open Idealize.ShloMosaic.StableHlo Cert.Spec

variable (m : (ℓ : Loc nD τ sig) → Buf (Elt Ideal) ℓ) (ρ : Dev nD → PrngReg)

/-- The first result after the lines that follow the region: the first output array, re-laid. -/
theorem result_pos (c : Dev nD) :
    Pipeline.afterTail₀ cfgs (dats m) 0 (V0 m) [hostOps1] c main_v62
      = shapeCast S4x16384x512
          (GPos (V m c main_v43) (V m c main_v8) (V m c main_v54) (V m c main_v56) (V m c main_v57) (V m c main_v59))
          shapeCasts_S65536x512_S4x16384x512 := by
  unfold Pipeline.afterTail₀
  show StableHlo.after hostOps1 _ (Proc.devRef .tc main_v62) = _
  after_results
  exact congrArg (fun z => shapeCast S4x16384x512 z shapeCasts_S65536x512_S4x16384x512)
    ((Pipeline.withArrays_arr spec0 launch0.win.arr_inj c _ _ 8).trans (Arrays.final8 m c))

/-- The second result after the lines that follow the region: the second output array, re-laid. -/
theorem result_geo (c : Dev nD) :
    Pipeline.afterTail₀ cfgs (dats m) 0 (V0 m) [hostOps1] c main_v63
      = shapeCast S4x16384x512
          (GGeo (V m c main_v43) (V m c main_v8) (V m c main_v54) (V m c main_v56) (V m c main_v58) (V m c main_v60))
          shapeCasts_S65536x512_S4x16384x512 := by
  unfold Pipeline.afterTail₀
  show StableHlo.after hostOps1 _ (Proc.devRef .tc main_v63) = _
  after_results
  exact congrArg (fun z => shapeCast S4x16384x512 z shapeCasts_S65536x512_S4x16384x512)
    ((Pipeline.withArrays_arr spec0 launch0.win.arr_inj c _ _ 9).trans (Arrays.final9 m c))

/-- Every weakly fair execution of the kernel program terminates with its two results at the re-laid output functions
    of the region's input arrays and its arguments as launched. -/
theorem run : θ_run defs (onTc (τ := τ) (main (F := Ideal))) ⟨m, fun _ => 0, ρ⟩ (fun r => ∀ c : Dev nD,
      r.2.mem ((c.tc : Thread nD τ).loc main_v62) = shapeCast S4x16384x512
          (GPos (V m c main_v43) (V m c main_v8) (V m c main_v54) (V m c main_v56) (V m c main_v57) (V m c main_v59))
          shapeCasts_S65536x512_S4x16384x512
      ∧ r.2.mem ((c.tc : Thread nD τ).loc main_v63) = shapeCast S4x16384x512
          (GGeo (V m c main_v43) (V m c main_v8) (V m c main_v54) (V m c main_v56) (V m c main_v58) (V m c main_v60))
          shapeCasts_S65536x512_S4x16384x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨((h c).2 main_v62 (Pipeline.mem_restRefs_of main_v62 (by decide) (by decide))).trans (result_pos m c),
      ((h c).2 main_v63 (Pipeline.mem_restRefs_of main_v63 (by decide) (by decide))).trans (result_geo m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.RunSide

end
-- ==== Proof.KernelHost.lean ====
import proofs.«109030_j74586402062456_2_alg».proof.Proof.Gen.KernelIdeal.Frame
import Idealize.ShloMosaic.Lib.StableHlo.Run
import Idealize.ShloMosaic.PureOps.Ideal

/-!
  The eight arrays the region reads, as the host lines before it leave them.

  The joined features are the two feature arrays side by side; the flattened features are the feature argument
  re-laid as rows; the joined first-layer weights are a zero [10, 1024] array with the first weight matrix written at
  (0, 0) and the third at (4, 512); the joined bias is the two bias vectors end to end, as one row; the second-layer
  weights are the arguments in another float format, the second-layer biases the arguments as one row each.
-/

noncomputable section

namespace Cert.KernelIdeal.HostSide

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The joined features: the [65536, 4] and the [65536, 6] feature arrays side by side. -/
theorem joined_features (c : Dev nD) :
    (V m c main_v43 : S65536x10.Idx → EReal)
      = concatenate S65536x10 1 [⟨S65536x4, V m c main_v29⟩, ⟨S65536x6, V m c main_v42⟩] concatenates_S65536x4_S65536x6_S65536x10_d1 := by
  dsimp only [V, V0]
  simp only [hostOps0, hostOps0_1, hostOps0_2, hostOps0_3, hostOps0_4, List.flatten_cons, List.flatten_nil, List.append_nil,
    List.cons_append, List.nil_append]
  after_results_simp
  all_goals rfl

/-- The flattened features. -/
theorem flat_features (c : Dev nD) :
    (V m c main_v8 : S65536x512.Idx → EReal)
      = shapeCast S65536x512 (m ((c : Thread nD τ).loc main_arg1)) shapeCasts_S4x16384x512_S65536x512 := by
  dsimp only [V, V0]
  simp only [hostOps0, hostOps0_1, hostOps0_2, hostOps0_3, hostOps0_4, List.flatten_cons, List.flatten_nil, List.append_nil,
    List.cons_append, List.nil_append]
  after_results_simp
  all_goals rfl

/-- The joined first-layer weights: two windows written into a zero array. -/
theorem joined_weights (c : Dev nD) :
    (V m c main_v54 : S10x1024.Idx → EReal)
      = Host.scatter scatter_S10x1024_S2_S6x512_01_n_01_0 (fun _ b => b)
          (Host.scatter scatter_S10x1024_S2_S4x512_01_n_01_0 (fun _ b => b)
            (broadcastInDim S10x1024 ![] bcast_S_S10x1024 (constant (F := Ideal) S_ .bf16 0x0000#16))
            (concatenate S2 0 [⟨S1, broadcastInDim S1 ![] bcast_S_S1 (constantI S_ 32 0#32)⟩,
              ⟨S1, broadcastInDim S1 ![] bcast_S_S1 (constantI S_ 32 0#32)⟩] concatenates_S1_S1_S2_d0)
            (truncf .bf16 (m ((c : Thread nD τ).loc main_arg3)) bitsLt_bf16_f32))
          (concatenate S2 0 [⟨S1, broadcastInDim S1 ![] bcast_S_S1 (constantI S_ 32 4#32)⟩,
            ⟨S1, broadcastInDim S1 ![] bcast_S_S1 (constantI S_ 32 512#32)⟩] concatenates_S1_S1_S2_d0)
          (truncf .bf16 (m ((c : Thread nD τ).loc main_arg7)) bitsLt_bf16_f32) := by
  dsimp only [V, V0]
  simp only [hostOps0, hostOps0_1, hostOps0_2, hostOps0_3, hostOps0_4, List.flatten_cons, List.flatten_nil, List.append_nil,
    List.cons_append, List.nil_append]
  after_results_simp
  all_goals rfl

/-- The joined first-layer bias: the two bias vectors end to end, as one row. -/
theorem joined_bias (c : Dev nD) :
    (V m c main_v56 : S1x1024.Idx → EReal)
      = shapeCast S1x1024 (concatenate S1024 0 [⟨S512, m ((c : Thread nD τ).loc main_arg4)⟩, ⟨S512, m ((c : Thread nD τ).loc main_arg8)⟩]
          concatenates_S512_S512_S1024_d0) shapeCasts_S1024_S1x1024 := by
  dsimp only [V, V0]
  simp only [hostOps0, hostOps0_1, hostOps0_2, hostOps0_3, hostOps0_4, List.flatten_cons, List.flatten_nil, List.append_nil,
    List.cons_append, List.nil_append]
  after_results_simp
  all_goals rfl

/-- The second-layer weights of the first result. -/
theorem weights_pos (c : Dev nD) :
    (V m c main_v57 : S512x512.Idx → EReal)
      = (truncf (F := Ideal) .bf16 (m ((c : Thread nD τ).loc main_arg5) : FVec Ideal S512x512 .f32) bitsLt_bf16_f32 : FVec Ideal S512x512 .bf16) := by
  dsimp only [V, V0]
  simp only [hostOps0, hostOps0_1, hostOps0_2, hostOps0_3, hostOps0_4, List.flatten_cons, List.flatten_nil, List.append_nil,
    List.cons_append, List.nil_append]
  after_results_simp
  all_goals rfl

/-- The second-layer weights of the second result. -/
theorem weights_geo (c : Dev nD) :
    (V m c main_v58 : S512x512.Idx → EReal)
      = (truncf (F := Ideal) .bf16 (m ((c : Thread nD τ).loc main_arg9) : FVec Ideal S512x512 .f32) bitsLt_bf16_f32 : FVec Ideal S512x512 .bf16) := by
  dsimp only [V, V0]
  simp only [hostOps0, hostOps0_1, hostOps0_2, hostOps0_3, hostOps0_4, List.flatten_cons, List.flatten_nil, List.append_nil,
    List.cons_append, List.nil_append]
  after_results_simp
  all_goals rfl

/-- The second-layer bias of the first result, as one row. -/
theorem bias_pos (c : Dev nD) :
    (V m c main_v59 : S1x512.Idx → EReal) = shapeCast S1x512 (m ((c : Thread nD τ).loc main_arg6)) shapeCasts_S512_S1x512 := by
  dsimp only [V, V0]
  simp only [hostOps0, hostOps0_1, hostOps0_2, hostOps0_3, hostOps0_4, List.flatten_cons, List.flatten_nil, List.append_nil,
    List.cons_append, List.nil_append]
  after_results_simp
  all_goals rfl

/-- The second-layer bias of the second result, as one row. -/
theorem bias_geo (c : Dev nD) :
    (V m c main_v60 : S1x512.Idx → EReal) = shapeCast S1x512 (m ((c : Thread nD τ).loc main_arg10)) shapeCasts_S512_S1x512 := by
  dsimp only [V, V0]
  simp only [hostOps0, hostOps0_1, hostOps0_2, hostOps0_3, hostOps0_4, List.flatten_cons, List.flatten_nil, List.append_nil,
    List.cons_append, List.nil_append]
  after_results_simp
  all_goals rfl

end Cert.KernelIdeal.HostSide

end
-- ==== Proof.Features.lean ====
import proofs.«109030_j74586402062456_2_alg».proof.Proof.Gen.KernelIdeal.Frame
import proofs.«109030_j74586402062456_2_alg».proof.Proof.Gen.ReferenceIdeal.Read
import Idealize.ShloMosaic.Lib.StableHlo.Run
import Idealize.ShloMosaic.PureOps.Ideal

/-!
  The two feature arrays of the kernel program are the reference's.

  Both programs compute, by the same host lines of the same arguments, the [65536, 4] array (a point's offset from its
  cluster's centre and the offset's length) and the [65536, 6] array (the cluster's mean offset and the point's offset).
  The kernel program's arrays, as the region finds them, are therefore the reference's stages of the same arguments.
-/

noncomputable section

namespace Cert.Features

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The four-feature array is the reference's stage of the same arguments: the two programs' host lines agree. -/
theorem features4 (c : Dev nD) :
    (V m c main_v29 : S65536x4.Idx → EReal)
      = Cert.ReferenceIdeal.Read.val_main_v29 (F := Ideal) (m ((c : Thread nD τ).loc main_arg0)) (m ((c : Thread nD τ).loc main_arg2)) := by
  dsimp only [V, V0]
  simp only [hostOps0, hostOps0_1, hostOps0_2, hostOps0_3, hostOps0_4, List.flatten_cons, List.flatten_nil, List.append_nil,
    List.cons_append, List.nil_append]
  after_results_simp
  all_goals rfl

/-- The six-feature array is the reference's stage of the same arguments. -/
theorem features6 (c : Dev nD) :
    (V m c main_v42 : S65536x6.Idx → EReal)
      = Cert.ReferenceIdeal.Read.val_main_v52 (F := Ideal) (m ((c : Thread nD τ).loc main_arg0)) (m ((c : Thread nD τ).loc main_arg2)) := by
  dsimp only [V, V0]
  simp only [hostOps0, hostOps0_1, hostOps0_2, hostOps0_3, hostOps0_4, List.flatten_cons, List.flatten_nil, List.append_nil,
    List.cons_append, List.nil_append]
  after_results_simp
  all_goals rfl

end Cert.Features

end
-- ==== Proof.RefValue.lean ====
import proofs.«109030_j74586402062456_2_alg».proof.Proof.Gen.ReferenceIdeal.Read

/-!
  The reference's two flattened results, read at an entry.

  With X1 the [65536, 4] feature array, the first flattened result at (r, q) is
      f (r, q) + (sum over k < 512 of max (sum over j < 4 of X1 (r, j) * w1 (j, k) + b1 k) 0 * w2 (k, q) + b2 q),
  and with X2 the [65536, 6] feature array the second is the same over six features with (w3, b3) and (w4, b4).  The
  feature arrays and the flattened feature array f are carried as the reference's own stages, unopened.
-/

noncomputable section

namespace Cert.ReferenceIdeal.RefValue

open Cert.ReferenceIdeal Cert.ReferenceIdeal.Read Idealize.ShloMosaic Idealize.ShloMosaic.ValueIdx
open scoped BigOperators

/-- The first flattened result at (r, q). -/
theorem pos_apply (x0 : (⟨S4x16384x3, .f32⟩ : BufTy).Contents (Elt Ideal)) (x1 : (⟨S4x16384x512, .f32⟩ : BufTy).Contents (Elt Ideal))
    (x2 : (⟨S4x16384, .i32⟩ : BufTy).Contents (Elt Ideal)) (x3 : (⟨S4x512, .f32⟩ : BufTy).Contents (Elt Ideal))
    (x4 : (⟨S512, .f32⟩ : BufTy).Contents (Elt Ideal)) (x5 : (⟨S512x512, .f32⟩ : BufTy).Contents (Elt Ideal))
    (x6 : (⟨S512, .f32⟩ : BufTy).Contents (Elt Ideal)) (r : Fin 65536) (q : Fin 512) :
    val_main_v39 (F := Ideal) x0 x1 x2 x3 x4 x5 x6 (ix2 r q)
      = val_main_v8 (F := Ideal) x1 (ix2 r q)
        + (∑ k : Fin 512, max (∑ j : Fin 4, val_main_v29 (F := Ideal) x0 x2 (ix2 r j) * x3 (ix2 j k) + x4 (ix1 k)) 0 * x5 (ix2 k q)
          + x6 (ix1 q)) := by
  have e35l : ∀ k : Fin 512, lidx_main_v35 (ix2 r q) k = ix2 r k := fun k =>
    funext fun a => Fin.ext (by match a with | ⟨0, _⟩ => rfl | ⟨1, _⟩ => rfl)
  have e35r : ∀ k : Fin 512, ridx_main_v35 (ix2 r q) k = ix2 k q := fun k =>
    funext fun a => Fin.ext (by match a with | ⟨0, _⟩ => rfl | ⟨1, _⟩ => rfl)
  have e30l : ∀ (k : Fin 512) (j : Fin 4), lidx_main_v30 (ix2 r k) j = ix2 r j := fun k j =>
    funext fun a => Fin.ext (by match a with | ⟨0, _⟩ => rfl | ⟨1, _⟩ => rfl)
  have e30r : ∀ (k : Fin 512) (j : Fin 4), ridx_main_v30 (ix2 r k) j = ix2 j k := fun k j =>
    funext fun a => Fin.ext (by match a with | ⟨0, _⟩ => rfl | ⟨1, _⟩ => rfl)
  have e32 : ∀ k : Fin 512, idx_main_v31 (idx_main_v32 (ix2 r k)) = ix1 k := fun k =>
    funext fun a => Fin.ext (by match a with | ⟨0, _⟩ => rfl)
  have e37 : idx_main_v36 (idx_main_v37 (ix2 r q)) = ix1 q :=
    funext fun a => Fin.ext (by match a with | ⟨0, _⟩ => rfl)
  rw [val_main_v39_apply, val_main_v38_apply, val_main_v35_apply, val_main_v37_apply, val_main_v36_apply, e37]
  simp only [e35l, e35r, val_main_v34_apply, val_main_v33_apply, val_main_v30_apply, val_main_v32_apply, val_main_v31_apply,
    val_main_call2_v0_apply, val_main_call2_cst_apply, e30l, e30r, e32, Ideal.addf_def, Ideal.maximumf_def, Ideal.ofBits_def,
    Ideal.ofBits_zero_f32]

/-- The second flattened result at (r, q). -/
theorem geo_apply (x0 : (⟨S4x16384x3, .f32⟩ : BufTy).Contents (Elt Ideal)) (x1 : (⟨S4x16384x512, .f32⟩ : BufTy).Contents (Elt Ideal))
    (x2 : (⟨S4x16384, .i32⟩ : BufTy).Contents (Elt Ideal)) (x7 : (⟨S6x512, .f32⟩ : BufTy).Contents (Elt Ideal))
    (x8 : (⟨S512, .f32⟩ : BufTy).Contents (Elt Ideal)) (x9 : (⟨S512x512, .f32⟩ : BufTy).Contents (Elt Ideal))
    (x10 : (⟨S512, .f32⟩ : BufTy).Contents (Elt Ideal)) (r : Fin 65536) (q : Fin 512) :
    val_main_v62 (F := Ideal) x0 x1 x2 x7 x8 x9 x10 (ix2 r q)
      = val_main_v8 (F := Ideal) x1 (ix2 r q)
        + (∑ k : Fin 512, max (∑ j : Fin 6, val_main_v52 (F := Ideal) x0 x2 (ix2 r j) * x7 (ix2 j k) + x8 (ix1 k)) 0 * x9 (ix2 k q)
          + x10 (ix1 q)) := by
  have e58l : ∀ k : Fin 512, lidx_main_v58 (ix2 r q) k = ix2 r k := fun k =>
    funext fun a => Fin.ext (by match a with | ⟨0, _⟩ => rfl | ⟨1, _⟩ => rfl)
  have e58r : ∀ k : Fin 512, ridx_main_v58 (ix2 r q) k = ix2 k q := fun k =>
    funext fun a => Fin.ext (by match a with | ⟨0, _⟩ => rfl | ⟨1, _⟩ => rfl)
  have e53l : ∀ (k : Fin 512) (j : Fin 6), lidx_main_v53 (ix2 r k) j = ix2 r j := fun k j =>
    funext fun a => Fin.ext (by match a with | ⟨0, _⟩ => rfl | ⟨1, _⟩ => rfl)
  have e53r : ∀ (k : Fin 512) (j : Fin 6), ridx_main_v53 (ix2 r k) j = ix2 j k := fun k j =>
    funext fun a => Fin.ext (by match a with | ⟨0, _⟩ => rfl | ⟨1, _⟩ => rfl)
  have e55 : ∀ k : Fin 512, idx_main_v54 (idx_main_v55 (ix2 r k)) = ix1 k := fun k =>
    funext fun a => Fin.ext (by match a with | ⟨0, _⟩ => rfl)
  have e60 : idx_main_v59 (idx_main_v60 (ix2 r q)) = ix1 q :=
    funext fun a => Fin.ext (by match a with | ⟨0, _⟩ => rfl)
  rw [val_main_v62_apply, val_main_v61_apply, val_main_v58_apply, val_main_v60_apply, val_main_v59_apply, e60]
  simp only [e58l, e58r, val_main_v57_apply, val_main_v56_apply, val_main_v53_apply, val_main_v55_apply, val_main_v54_apply,
    val_main_call3_v0_apply, val_main_call3_cst_apply, e53l, e53r, e55, Ideal.addf_def, Ideal.maximumf_def, Ideal.ofBits_def,
    Ideal.ofBits_zero_f32]

end Cert.ReferenceIdeal.RefValue

end
-- ==== Proof.BlockDiagonal.lean ====
/-
  A BLOCK-DIAGONAL FIRST LAYER SPLITS INTO ITS TWO BLOCKS.

  The joined features are `X = [X1 | X2]` (four and six columns) and the joined first-layer weights `W` ([10, 1024]) are
  block diagonal: `w1` ([4, 512]) on rows `< 4` and columns `< 512`, `w3` ([6, 512]) on rows `≥ 4` and columns `≥ 512`,
  zero on the two remaining blocks. A row of `X` against a column of `W` is then a row of `X1` against a column of `w1`
  (left half) or a row of `X2` against a column of `w3` (right half): the terms that meet a zero block are `x * 0 = 0`,
  which holds on the extended reals for every `x`, infinite or not, and the sum of zeros is dropped by `x + 0 = x` /
  `0 + x = x`. So the two results of the specification are the two small networks applied separately
  (`posAt_split`, `geoAt_split`).
-/
import Mathlib
import proofs.«109030_j74586402062456_2_alg».proof.Proof.Spec

noncomputable section

namespace Cert.BlockDiagonal

open Idealize.ShloMosaic Idealize.ShloMosaic.ValueIdx Cert.Spec
open scoped BigOperators

/-- Two rank-2 indices whose coordinates have equal values are equal. -/
theorem ix2_eq {n0 n1 : Nat} {a a' : Fin n0} {b b' : Fin n1} (ha : a.val = a'.val) (hb : b.val = b'.val) :
    ix2 a b = ix2 a' b' := by
  obtain rfl := Fin.ext ha
  obtain rfl := Fin.ext hb
  rfl

/-- A row of the joined features against a LEFT-half column `k < 512` of the block-diagonal weights: the last six terms
    meet the zero block (`x * 0 = 0` on the extended reals, whatever `x`), the first four the `4 × 512` block. -/
theorem row_lo (X : (⟨2, ![65536, 10]⟩ : Shape).Idx → EReal) (X1 : (⟨2, ![65536, 4]⟩ : Shape).Idx → EReal)
    (W : (⟨2, ![10, 1024]⟩ : Shape).Idx → EReal) (w1 : (⟨2, ![4, 512]⟩ : Shape).Idx → EReal)
    (w3 : (⟨2, ![6, 512]⟩ : Shape).Idx → EReal)
    (hX1 : ∀ (r : Fin 65536) (j : Fin 10) (h : j.val < 4), X (ix2 r j) = X1 (ix2 r ⟨j.val, h⟩))
    (hW : ∀ (p : Fin 10) (q : Fin 1024), W (ix2 p q) =
      if h1 : p.val < 4 ∧ q.val < 512 then w1 (ix2 ⟨p.val, h1.1⟩ ⟨q.val, h1.2⟩)
      else if h2 : 4 ≤ p.val ∧ 512 ≤ q.val then w3 (ix2 ⟨p.val - 4, by omega⟩ ⟨q.val - 512, by omega⟩)
      else 0)
    (r : Fin 65536) (k : Fin 512) :
    ∑ j : Fin 10, X (ix2 r j) * W (ix2 j (lo k)) = ∑ j : Fin 4, X1 (ix2 r j) * w1 (ix2 j k) := by
  have hk := k.isLt
  have ek : (lo k).val = k.val := rfl
  have hsplit := Fin.sum_univ_add (a := 4) (b := 6) (fun j : Fin (4 + 6) => X (ix2 r j) * W (ix2 j (lo k)))
  refine hsplit.trans ?_
  have hright : ∑ i : Fin 6, X (ix2 r (Fin.natAdd 4 i)) * W (ix2 (Fin.natAdd 4 i) (lo k)) = 0 := by
    apply Finset.sum_eq_zero
    intro i _
    have ei : (Fin.natAdd 4 i).val = 4 + i.val := rfl
    rw [hW, dif_neg (by omega), dif_neg (by omega), mul_zero]
  have hleft : ∀ i : Fin 4, X (ix2 r (Fin.castAdd 6 i)) * W (ix2 (Fin.castAdd 6 i) (lo k)) = X1 (ix2 r i) * w1 (ix2 i k) := by
    intro i
    have hi := i.isLt
    have ei : (Fin.castAdd 6 i).val = i.val := rfl
    rw [hW, dif_pos (by omega), hX1 r (Fin.castAdd 6 i) (by omega)]
    rfl
  rw [hright, add_zero]
  exact Finset.sum_congr rfl (fun i _ => hleft i)

/-- A row of the joined features against a RIGHT-half column `512 + k` of the block-diagonal weights: the first four
    terms meet the zero block, the last six the `6 × 512` block (`0 + x = x`). -/
theorem row_hi (X : (⟨2, ![65536, 10]⟩ : Shape).Idx → EReal) (X2 : (⟨2, ![65536, 6]⟩ : Shape).Idx → EReal)
    (W : (⟨2, ![10, 1024]⟩ : Shape).Idx → EReal) (w1 : (⟨2, ![4, 512]⟩ : Shape).Idx → EReal)
    (w3 : (⟨2, ![6, 512]⟩ : Shape).Idx → EReal)
    (hX2 : ∀ (r : Fin 65536) (j : Fin 10) (h : 4 ≤ j.val), X (ix2 r j) = X2 (ix2 r ⟨j.val - 4, by omega⟩))
    (hW : ∀ (p : Fin 10) (q : Fin 1024), W (ix2 p q) =
      if h1 : p.val < 4 ∧ q.val < 512 then w1 (ix2 ⟨p.val, h1.1⟩ ⟨q.val, h1.2⟩)
      else if h2 : 4 ≤ p.val ∧ 512 ≤ q.val then w3 (ix2 ⟨p.val - 4, by omega⟩ ⟨q.val - 512, by omega⟩)
      else 0)
    (r : Fin 65536) (k : Fin 512) :
    ∑ j : Fin 10, X (ix2 r j) * W (ix2 j (hi k)) = ∑ j : Fin 6, X2 (ix2 r j) * w3 (ix2 j k) := by
  have hk := k.isLt
  have ek : (hi k).val = 512 + k.val := rfl
  have hsplit := Fin.sum_univ_add (a := 4) (b := 6) (fun j : Fin (4 + 6) => X (ix2 r j) * W (ix2 j (hi k)))
  refine hsplit.trans ?_
  have hleft : ∑ i : Fin 4, X (ix2 r (Fin.castAdd 6 i)) * W (ix2 (Fin.castAdd 6 i) (hi k)) = 0 := by
    apply Finset.sum_eq_zero
    intro i _
    have hi' := i.isLt
    have ei : (Fin.castAdd 6 i).val = i.val := rfl
    rw [hW, dif_neg (by omega), dif_neg (by omega), mul_zero]
  have hright : ∀ i : Fin 6, X (ix2 r (Fin.natAdd 4 i)) * W (ix2 (Fin.natAdd 4 i) (hi k)) = X2 (ix2 r i) * w3 (ix2 i k) := by
    intro i
    have hi' := i.isLt
    have ei : (Fin.natAdd 4 i).val = 4 + i.val := rfl
    rw [hW, dif_neg (by omega), dif_pos (by omega), hX2 r (Fin.natAdd 4 i) (by omega)]
    rw [ix2_eq (a := ⟨(Fin.natAdd 4 i).val - 4, _⟩) (a' := i) (b := ⟨(hi k).val - 512, _⟩) (b' := k)
      (by show (Fin.natAdd 4 i).val - 4 = i.val; omega) (by show (hi k).val - 512 = k.val; omega)]
    rw [ix2_eq (a := r) (a' := r) (b := ⟨(Fin.natAdd 4 i).val - 4, _⟩) (b' := i) rfl
      (by show (Fin.natAdd 4 i).val - 4 = i.val; omega)]
  rw [hleft, zero_add]
  exact Finset.sum_congr rfl (fun i _ => hright i)

/-- The first result with a block-diagonal first layer. When the joined features are `[X1 | X2]` (four and six
    columns), the joined weights are `w1` on rows `< 4`, columns `< 512`, `w3` on rows `≥ 4`, columns `≥ 512` and zero
    elsewhere, and the left half of the joined bias is `b1`, the hidden layer's left half is
    `max (X1 · w1 + b1) 0`: the zero block contributes `x * 0 = 0` to each sum, with no finiteness needed on the
    extended reals. -/
theorem posAt_split (X : (⟨2, ![65536, 10]⟩ : Shape).Idx → EReal) (X1 : (⟨2, ![65536, 4]⟩ : Shape).Idx → EReal)
    (f : (⟨2, ![65536, 512]⟩ : Shape).Idx → EReal)
    (W : (⟨2, ![10, 1024]⟩ : Shape).Idx → EReal) (w1 : (⟨2, ![4, 512]⟩ : Shape).Idx → EReal)
    (w3 : (⟨2, ![6, 512]⟩ : Shape).Idx → EReal) (c : (⟨2, ![1, 1024]⟩ : Shape).Idx → EReal)
    (b1 : (⟨1, ![512]⟩ : Shape).Idx → EReal)
    (A : (⟨2, ![512, 512]⟩ : Shape).Idx → EReal) (a : (⟨2, ![1, 512]⟩ : Shape).Idx → EReal)
    (hX1 : ∀ (r : Fin 65536) (j : Fin 10) (h : j.val < 4), X (ix2 r j) = X1 (ix2 r ⟨j.val, h⟩))
    (hW : ∀ (p : Fin 10) (q : Fin 1024), W (ix2 p q) =
      if h1 : p.val < 4 ∧ q.val < 512 then w1 (ix2 ⟨p.val, h1.1⟩ ⟨q.val, h1.2⟩)
      else if h2 : 4 ≤ p.val ∧ 512 ≤ q.val then w3 (ix2 ⟨p.val - 4, by omega⟩ ⟨q.val - 512, by omega⟩)
      else 0)
    (hc : ∀ k : Fin 512, c (ix2 (0 : Fin 1) (lo k)) = b1 (ix1 k))
    (r : Fin 65536) (q : Fin 512) :
    posAt X f W c A a r q =
      f (ix2 r q) + (∑ k : Fin 512, max (∑ j : Fin 4, X1 (ix2 r j) * w1 (ix2 j k) + b1 (ix1 k)) 0 * A (ix2 k q)
        + a (ix2 (0 : Fin 1) q)) := by
  unfold posAt
  have hrow : ∀ k : Fin 512, (∑ j : Fin 10, X (ix2 r j) * W (ix2 j (lo k)) + c (ix2 (0 : Fin 1) (lo k))) =
      (∑ j : Fin 4, X1 (ix2 r j) * w1 (ix2 j k) + b1 (ix1 k)) := fun k => by
    rw [row_lo X X1 W w1 w3 hX1 hW r k, hc k]
  simp only [hrow]

/-- The second result with a block-diagonal first layer: under the same description of the joined features and
    weights, and the right half of the joined bias being `b3`, the hidden layer's right half is
    `max (X2 · w3 + b3) 0` (the zero block contributes `x * 0 = 0`, and `0 + x = x`). -/
theorem geoAt_split (X : (⟨2, ![65536, 10]⟩ : Shape).Idx → EReal) (X2 : (⟨2, ![65536, 6]⟩ : Shape).Idx → EReal)
    (f : (⟨2, ![65536, 512]⟩ : Shape).Idx → EReal)
    (W : (⟨2, ![10, 1024]⟩ : Shape).Idx → EReal) (w1 : (⟨2, ![4, 512]⟩ : Shape).Idx → EReal)
    (w3 : (⟨2, ![6, 512]⟩ : Shape).Idx → EReal) (c : (⟨2, ![1, 1024]⟩ : Shape).Idx → EReal)
    (b3 : (⟨1, ![512]⟩ : Shape).Idx → EReal)
    (B : (⟨2, ![512, 512]⟩ : Shape).Idx → EReal) (b : (⟨2, ![1, 512]⟩ : Shape).Idx → EReal)
    (hX2 : ∀ (r : Fin 65536) (j : Fin 10) (h : 4 ≤ j.val), X (ix2 r j) = X2 (ix2 r ⟨j.val - 4, by omega⟩))
    (hW : ∀ (p : Fin 10) (q : Fin 1024), W (ix2 p q) =
      if h1 : p.val < 4 ∧ q.val < 512 then w1 (ix2 ⟨p.val, h1.1⟩ ⟨q.val, h1.2⟩)
      else if h2 : 4 ≤ p.val ∧ 512 ≤ q.val then w3 (ix2 ⟨p.val - 4, by omega⟩ ⟨q.val - 512, by omega⟩)
      else 0)
    (hc : ∀ k : Fin 512, c (ix2 (0 : Fin 1) (hi k)) = b3 (ix1 k))
    (r : Fin 65536) (q : Fin 512) :
    geoAt X f W c B b r q =
      f (ix2 r q) + (∑ k : Fin 512, max (∑ j : Fin 6, X2 (ix2 r j) * w3 (ix2 j k) + b3 (ix1 k)) 0 * B (ix2 k q)
        + b (ix2 (0 : Fin 1) q)) := by
  unfold geoAt
  have hrow : ∀ k : Fin 512, (∑ j : Fin 10, X (ix2 r j) * W (ix2 j (hi k)) + c (ix2 (0 : Fin 1) (hi k))) =
      (∑ j : Fin 6, X2 (ix2 r j) * w3 (ix2 j k) + b3 (ix1 k)) := fun k => by
    rw [row_hi X X2 W w1 w3 hX2 hW r k, hc k]
  simp only [hrow]

end Cert.BlockDiagonal

end
-- ==== Proof.Joined.lean ====
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

/-!
  Arrays laid side by side or end to end, read at an entry.

  Two matrices with the same number of rows joined along the columns read, at (r, j), the first at (r, j) when j is one
  of its columns and the second at (r, j less the first's width) otherwise; two vectors joined end to end and re-laid as
  one row read likewise at (0, k).  The zero pattern of the sixteen-bit float format denotes 0.
-/

noncomputable section

namespace Cert.Joined

open Idealize.ShloMosaic Idealize.ShloMosaic.ValueIdx

variable {α : Type}

/-- Two matrices side by side, at a column of the first. -/
theorem side_by_side_left {R a b : Nat} (x₁ : (⟨2, ![R, a]⟩ : Shape).Idx → α) (x₂ : (⟨2, ![R, b]⟩ : Shape).Idx → α)
    (h : Shape.Concatenates [⟨2, ![R, a]⟩, ⟨2, ![R, b]⟩] ⟨2, ![R, a + b]⟩ 1) (r : Fin R) (j : Fin (a + b)) (hj : j.val < a) :
    concatenate ⟨2, ![R, a + b]⟩ 1 [⟨⟨2, ![R, a]⟩, x₁⟩, ⟨⟨2, ![R, b]⟩, x₂⟩] h (ix2 r j) = x₁ (ix2 r ⟨j.val, hj⟩) :=
  concatenate_pair_apply_left 1 x₁ x₂ h (ix2 r j) rfl (ix2 r ⟨j.val, hj⟩) (fun d => by
    match d with
    | ⟨0, _⟩ => rfl
    | ⟨1, _⟩ => rfl)

/-- Two matrices side by side, at a column of the second. -/
theorem side_by_side_right {R a b : Nat} (x₁ : (⟨2, ![R, a]⟩ : Shape).Idx → α) (x₂ : (⟨2, ![R, b]⟩ : Shape).Idx → α)
    (h : Shape.Concatenates [⟨2, ![R, a]⟩, ⟨2, ![R, b]⟩] ⟨2, ![R, a + b]⟩ 1) (r : Fin R) (j : Fin (a + b)) (hj : a ≤ j.val) :
    concatenate ⟨2, ![R, a + b]⟩ 1 [⟨⟨2, ![R, a]⟩, x₁⟩, ⟨⟨2, ![R, b]⟩, x₂⟩] h (ix2 r j)
      = x₂ (ix2 r ⟨j.val - a, by have := j.isLt; omega⟩) :=
  concatenate_pair_apply_right 1 x₁ x₂ h (ix2 r j) rfl rfl (ix2 r ⟨j.val - a, by have := j.isLt; omega⟩) (fun d hd => by
    match d with
    | ⟨0, _⟩ => rfl
    | ⟨1, _⟩ => exact absurd rfl hd) (by show j.val - a + a = j.val; omega)

/-- Two vectors end to end, at an entry of the first. -/
theorem end_to_end_left {a b : Nat} (x₁ : (⟨1, ![a]⟩ : Shape).Idx → α) (x₂ : (⟨1, ![b]⟩ : Shape).Idx → α)
    (h : Shape.Concatenates [⟨1, ![a]⟩, ⟨1, ![b]⟩] ⟨1, ![a + b]⟩ 0) (k : Fin (a + b)) (hk : k.val < a) :
    concatenate ⟨1, ![a + b]⟩ 0 [⟨⟨1, ![a]⟩, x₁⟩, ⟨⟨1, ![b]⟩, x₂⟩] h (ix1 k) = x₁ (ix1 ⟨k.val, hk⟩) :=
  concatenate_pair_apply_left 0 x₁ x₂ h (ix1 k) rfl (ix1 ⟨k.val, hk⟩) (fun d => by
    match d with
    | ⟨0, _⟩ => rfl)

/-- Two vectors end to end, at an entry of the second. -/
theorem end_to_end_right {a b : Nat} (x₁ : (⟨1, ![a]⟩ : Shape).Idx → α) (x₂ : (⟨1, ![b]⟩ : Shape).Idx → α)
    (h : Shape.Concatenates [⟨1, ![a]⟩, ⟨1, ![b]⟩] ⟨1, ![a + b]⟩ 0) (k : Fin (a + b)) (hk : a ≤ k.val) :
    concatenate ⟨1, ![a + b]⟩ 0 [⟨⟨1, ![a]⟩, x₁⟩, ⟨⟨1, ![b]⟩, x₂⟩] h (ix1 k)
      = x₂ (ix1 ⟨k.val - a, by have := k.isLt; omega⟩) :=
  concatenate_pair_apply_right 0 x₁ x₂ h (ix1 k) rfl rfl (ix1 ⟨k.val - a, by have := k.isLt; omega⟩) (fun d hd => by
    match d with
    | ⟨0, _⟩ => exact absurd rfl hd) (by show k.val - a + a = k.val; omega)

/-- The zero pattern of the sixteen-bit float format denotes 0. -/
theorem ofBits_zero_bf16 : Ideal.ofBits .bf16 0x0000#16 = 0 := by simp [Ideal.ofBits, Ideal.ieee]

end Cert.Joined

end
-- ==== Proof.LibWindowSet.lean ====
/-
  A `stablehlo.scatter` WHOSE BODY RETURNS THE UPDATE ("set"), read at one index of its result.

  `Host.scatter d f x idx upd` is a left fold, over the update indices in row-major order, of the step "replace the
  operand's element at the update index's result index by `f` of it and the update's element, or do nothing when the
  result index falls outside the operand". For `f = fun _ b => b` the step overwrites, so the value of the fold at one
  operand index `i'` is decided by WHICH update indices land on `i'`:

  * none does: the operand's own element (`scatter_set_apply_of_miss`);
  * exactly one, `j0`, does: the update's element at `j0` (`scatter_set_apply_of_hit`).

  Both come from two facts about a left fold of an overwriting step over a list (`foldl_miss`, `foldl_hit`).

  The second half specialises to ONE WHOLE 2-D WINDOW written at one start index `(r0, c0)` into a 2-D operand
  (`x.at[r0:r0+h, c0:c0+w].set(u)`): dimension numbers `update_window_dims = [0, 1]`, no inserted window axes,
  `scatter_dims_to_operand_dims = [0, 1]`, `index_vector_dim = 0`, the scatter indices one vector of two components.
  Update index `j` then lands at `(r0 + j 0, c0 + j 1)` (`window2_resultIdx?`), an injective map onto the window, so the
  result at `(p, q)` is the update at `(p - r0, q - c0)` inside the window and the operand outside
  (`scatter_window2_set_apply`). `scatter_two_windows_apply` is the instance of two disjoint windows written one after
  the other into a 10 × 1024 operand.
-/
import Mathlib
import Idealize.ShloMosaic.Lib.ValueIdxCoords

open Idealize.ShloMosaic Idealize.ShloMosaic.ValueIdx

namespace LibWindowSet

section Fold

variable {ι κ α : Type}

/-- A left fold of a step that leaves position `i'` alone whenever the key `g n` of the folded element is not
    `some i'`: if no element of the list has key `some i'`, the fold's value at `i'` is the initial one. -/
theorem foldl_miss (g : κ → Option ι) (step : (ι → α) → κ → ι → α)
    (hmiss : ∀ r n i', g n ≠ some i' → step r n i' = r i')
    (l : List κ) (x : ι → α) (i' : ι) (h : ∀ n ∈ l, g n ≠ some i') :
    l.foldl step x i' = x i' := by
  induction l generalizing x with
  | nil => rfl
  | cons n l ih =>
    simp only [List.foldl_cons]
    rw [ih _ (fun m hm => h m (List.mem_cons_of_mem _ hm))]
    exact hmiss _ _ _ (h n (List.mem_cons_self ..))

/-- A left fold of an OVERWRITING step — at position `i'` it writes `v n` when the folded element's key `g n` is
    `some i'` and leaves the position alone otherwise — over a list without repeats in which `n0` is the one element
    whose key is `some i'`: the fold's value at `i'` is `v n0`, whatever the initial value and the order. -/
theorem foldl_hit (g : κ → Option ι) (v : κ → α) (step : (ι → α) → κ → ι → α)
    (hhit : ∀ r n i', g n = some i' → step r n i' = v n)
    (hmiss : ∀ r n i', g n ≠ some i' → step r n i' = r i')
    (l : List κ) (hnd : l.Nodup) (x : ι → α) (i' : ι) (n0 : κ) (hn0 : n0 ∈ l) (hg : g n0 = some i')
    (huniq : ∀ n ∈ l, g n = some i' → n = n0) :
    l.foldl step x i' = v n0 := by
  induction l generalizing x with
  | nil => cases hn0
  | cons n l ih =>
    rw [List.nodup_cons] at hnd
    simp only [List.foldl_cons]
    by_cases hn : n = n0
    · subst hn
      rw [foldl_miss g step hmiss l _ i' (fun m hm hgm => hnd.1 (huniq m (List.mem_cons_of_mem _ hm) hgm ▸ hm))]
      exact hhit _ _ _ hg
    · have hmem : n0 ∈ l := (List.mem_cons.1 hn0).resolve_left (Ne.symm hn)
      exact ih hnd.2 _ hmem (fun m hm => huniq m (List.mem_cons_of_mem _ hm))

end Fold

section Scatter

variable {s si u : Shape} {α : Type} {w : Nat}

/-- One step of the scatter fold with the body "return the update", read at the index the update lands on: the
    update's element. -/
theorem scatter_set_step_hit (d : ScatterDims s si u) (idx : IVec si w) (upd : u.Idx → α)
    (r : s.Idx → α) (n : Fin u.numel) (i' : s.Idx) (hg : d.resultIdx? (u.rowMajor.symm n) idx = some i') :
    (match d.resultIdx? (u.rowMajor.symm n) idx with
      | some i => fun i' => if i' = i then (fun _ b => b) (r i) (upd (u.rowMajor.symm n)) else r i'
      | none => r) i' = upd (u.rowMajor.symm n) := by
  rw [hg]; simp

/-- One step of the scatter fold with the body "return the update", read at an index the update does not land on
    (it lands elsewhere, or is dropped): the accumulator's element, unchanged. -/
theorem scatter_set_step_miss (d : ScatterDims s si u) (idx : IVec si w) (upd : u.Idx → α)
    (r : s.Idx → α) (n : Fin u.numel) (i' : s.Idx) (hg : d.resultIdx? (u.rowMajor.symm n) idx ≠ some i') :
    (match d.resultIdx? (u.rowMajor.symm n) idx with
      | some i => fun i' => if i' = i then (fun _ b => b) (r i) (upd (u.rowMajor.symm n)) else r i'
      | none => r) i' = r i' := by
  cases hr : d.resultIdx? (u.rowMajor.symm n) idx with
  | none => rfl
  | some i =>
    have hne : i' ≠ i := fun e => hg (by rw [hr, e])
    simp [hne]

/-- A scatter whose body returns the update, read at an operand index `i'` that NO update index lands on: the
    operand's own element. -/
theorem scatter_set_apply_of_miss (d : ScatterDims s si u) (x : s.Idx → α) (idx : IVec si w) (upd : u.Idx → α)
    (i' : s.Idx) (h : ∀ j, d.resultIdx? j idx ≠ some i') :
    Host.scatter d (fun _ b => b) x idx upd i' = x i' := by
  unfold Host.scatter
  exact foldl_miss (fun n => d.resultIdx? (u.rowMajor.symm n) idx) _
    (fun r n i' hg => scatter_set_step_miss d idx upd r n i' hg) _ x i' (fun n _ => h _)

/-- A scatter whose body returns the update, read at an operand index `i'` that EXACTLY ONE update index `j0`
    lands on: the update's element at `j0` (the row-major order of the fold does not matter: the update indices
    are enumerated without repeats, through the bijection between multi-indices and row-major positions). -/
theorem scatter_set_apply_of_hit (d : ScatterDims s si u) (x : s.Idx → α) (idx : IVec si w) (upd : u.Idx → α)
    (i' : s.Idx) (j0 : u.Idx) (hj0 : d.resultIdx? j0 idx = some i')
    (huniq : ∀ j, d.resultIdx? j idx = some i' → j = j0) :
    Host.scatter d (fun _ b => b) x idx upd i' = upd j0 := by
  unfold Host.scatter
  refine (foldl_hit (fun n => d.resultIdx? (u.rowMajor.symm n) idx) (fun n => upd (u.rowMajor.symm n)) _
    (fun r n i' hg => scatter_set_step_hit d idx upd r n i' hg)
    (fun r n i' hg => scatter_set_step_miss d idx upd r n i' hg)
    (List.finRange u.numel) (List.nodup_finRange _) x i' (u.rowMajor j0) (List.mem_finRange _)
    (by simpa using hj0)
    (fun n _ hn => by
      have := huniq _ hn
      rw [← this]; simp)).trans ?_
  show upd (u.rowMajor.symm (u.rowMajor j0)) = upd j0
  rw [Equiv.symm_apply_apply]

end Scatter

section Window

variable {α : Type} {R C h w : Nat}

/-- The result index of update index `j` for one whole 2-D window (`update_window_dims = [0, 1]`, nothing
    inserted, `scatter_dims_to_operand_dims = [0, 1]`, `index_vector_dim = 0`) at the start `(r0, c0)` read signed
    off the two components of the one scatter index, the `h × w` window fitting inside the `R × C` operand: the
    window coordinate on axis `a` is `j a` and the start on axis `a` is component `a` of the index vector, so `j` lands
    at `(r0 + j 0, c0 + j 1)`, inside the operand. -/
theorem window2_resultIdx? (d : ScatterDims ⟨2, ![R, C]⟩ ⟨1, ![2]⟩ ⟨2, ![h, w]⟩)
    (hd1 : d.updateWindowDims = [0, 1]) (hd2 : d.insertedWindowDims = [])
    (hd3 : d.scatterDimsToOperandDims = [0, 1]) (hd4 : d.indexVectorDim = 0)
    (idx : IVec ⟨1, ![2]⟩ 32) (r0 c0 : Nat)
    (hr : (idx (ix1 0)).toInt = (r0 : Int)) (hc : (idx (ix1 1)).toInt = (c0 : Int))
    (hR : r0 + h ≤ R) (hC : c0 + w ≤ C) (j : (⟨2, ![h, w]⟩ : Shape).Idx) :
    d.resultIdx? j idx =
      some (ix2 ⟨r0 + (j 0).val, by have := idx2_lt0 j; omega⟩ ⟨c0 + (j 1).val, by have := idx2_lt1 j; omega⟩) := by
  obtain ⟨uw, iw, sd, iv, wf⟩ := d
  simp only at hd1 hd2 hd3 hd4
  subst hd1 hd2 hd3 hd4
  have hw0 : ScatterDims.window ⟨[0, 1], [], [0, 1], 0, wf⟩ j 0 = (j 0).val := rfl
  have hw1 : ScatterDims.window ⟨[0, 1], [], [0, 1], 0, wf⟩ j 1 = (j 1).val := rfl
  have hsi : ∀ c : Fin 2, ScatterDims.siIdx ⟨[0, 1], [], [0, 1], 0, wf⟩ j c = ix1 c := by
    intro c; funext b
    obtain rfl : b = 0 := Fin.fin_one_eq_zero b
    rfl
  have hs0 : ScatterDims.start ⟨[0, 1], [], [0, 1], 0, wf⟩ j idx 0 = (r0 : Int) := by
    rw [← hr, ← hsi 0]; rfl
  have hs1 : ScatterDims.start ⟨[0, 1], [], [0, 1], 0, wf⟩ j idx 1 = (c0 : Int) := by
    rw [← hc, ← hsi 1]; rfl
  have hj0 := idx2_lt0 j
  have hj1 := idx2_lt1 j
  unfold ScatterDims.resultIdx?
  have hcond : ∀ a, 0 ≤ ScatterDims.start ⟨[0, 1], [], [0, 1], 0, wf⟩ j idx a + ScatterDims.window ⟨[0, 1], [], [0, 1], 0, wf⟩ j a ∧
      ScatterDims.start ⟨[0, 1], [], [0, 1], 0, wf⟩ j idx a + ScatterDims.window ⟨[0, 1], [], [0, 1], 0, wf⟩ j a
        < (⟨2, ![R, C]⟩ : Shape).size a := by
    intro a
    match a with
    | ⟨0, _⟩ =>
      show 0 ≤ ScatterDims.start _ j idx 0 + ScatterDims.window _ j 0 ∧ ScatterDims.start _ j idx 0 + ScatterDims.window _ j 0 < (R : Int)
      rw [hs0, hw0]; omega
    | ⟨1, _⟩ =>
      show 0 ≤ ScatterDims.start _ j idx 1 + ScatterDims.window _ j 1 ∧ ScatterDims.start _ j idx 1 + ScatterDims.window _ j 1 < (C : Int)
      rw [hs1, hw1]; omega
  rw [dif_pos hcond]
  congr 1
  funext a
  match a with
  | ⟨0, _⟩ =>
    apply Fin.ext
    show (ScatterDims.start _ j idx 0 + ScatterDims.window _ j 0).toNat = r0 + (j 0).val
    rw [hs0, hw0]; omega
  | ⟨1, _⟩ =>
    apply Fin.ext
    show (ScatterDims.start _ j idx 1 + ScatterDims.window _ j 1).toNat = c0 + (j 1).val
    rw [hs1, hw1]; omega

end Window

section Main

variable {α : Type} {R C h w : Nat}

/-- Two rank-2 indices with equal coordinates are equal. -/
theorem ix2_congr {n0 n1 : Nat} {a a' : Fin n0} {b b' : Fin n1} (ha : a = a') (hb : b = b') :
    ix2 a b = ix2 a' b' := by subst ha hb; rfl

/-- `x.at[r0:r0+h, c0:c0+w].set(upd)` read at `(p, q)`: a scatter whose body returns the update, writing one whole
    `h × w` window at the start `(r0, c0)` (with `r0 + h ≤ R`, `c0 + w ≤ C`) into an `R × C` operand, is the update
    at `(p - r0, q - c0)` when `(p, q)` is in the window `r0 ≤ p < r0 + h`, `c0 ≤ q < c0 + w` and the operand at
    `(p, q)` otherwise: `j ↦ (r0 + j 0, c0 + j 1)` is injective with image the window. -/
theorem scatter_window2_set_apply (d : ScatterDims ⟨2, ![R, C]⟩ ⟨1, ![2]⟩ ⟨2, ![h, w]⟩)
    (hd1 : d.updateWindowDims = [0, 1]) (hd2 : d.insertedWindowDims = [])
    (hd3 : d.scatterDimsToOperandDims = [0, 1]) (hd4 : d.indexVectorDim = 0)
    (x : (⟨2, ![R, C]⟩ : Shape).Idx → α) (idx : IVec ⟨1, ![2]⟩ 32) (upd : (⟨2, ![h, w]⟩ : Shape).Idx → α)
    (r0 c0 : Nat) (hr : (idx (ix1 0)).toInt = (r0 : Int)) (hc : (idx (ix1 1)).toInt = (c0 : Int))
    (hR : r0 + h ≤ R) (hC : c0 + w ≤ C) (p : Fin R) (q : Fin C) :
    Host.scatter d (fun _ b => b) x idx upd (ix2 p q) =
      if hin : r0 ≤ p.val ∧ p.val < r0 + h ∧ c0 ≤ q.val ∧ q.val < c0 + w then
        upd (ix2 ⟨p.val - r0, by omega⟩ ⟨q.val - c0, by omega⟩)
      else x (ix2 p q) := by
  have hres := window2_resultIdx? d hd1 hd2 hd3 hd4 idx r0 c0 hr hc hR hC
  by_cases hin : r0 ≤ p.val ∧ p.val < r0 + h ∧ c0 ≤ q.val ∧ q.val < c0 + w
  · rw [dif_pos hin]
    apply scatter_set_apply_of_hit
    · rw [hres]
      exact congrArg some (ix2_congr (Fin.ext (by show r0 + (p.val - r0) = p.val; omega))
        (Fin.ext (by show c0 + (q.val - c0) = q.val; omega)))
    · intro j hj
      rw [hres j] at hj
      have hj' := Option.some.inj hj
      have e0 : r0 + (j 0).val = p.val := congrArg (fun i => (i 0).val) hj'
      have e1 : c0 + (j 1).val = q.val := congrArg (fun i => (i 1).val) hj'
      rw [eq_ix2 j]
      exact ix2_congr (Fin.ext (by show (j 0).val = p.val - r0; omega))
        (Fin.ext (by show (j 1).val = q.val - c0; omega))
  · rw [dif_neg hin]
    apply scatter_set_apply_of_miss
    intro j hj
    rw [hres j] at hj
    have hj' := Option.some.inj hj
    have e0 : r0 + (j 0).val = p.val := congrArg (fun i => (i 0).val) hj'
    have e1 : c0 + (j 1).val = q.val := congrArg (fun i => (i 1).val) hj'
    have hj0 := idx2_lt0 j
    have hj1 := idx2_lt1 j
    exact hin (by omega)

/-- Two windows written one after the other into a `10 × 1024` operand `Z`: first a `4 × 512` window at `(0, 0)`,
    then a `6 × 512` window at `(4, 512)`. The windows are disjoint, so at `(p, q)` the result is the first update at
    `(p, q)` when `p < 4` and `q < 512`, the second update at `(p - 4, q - 512)` when `4 ≤ p` and `512 ≤ q`, and
    `Z (p, q)` on the two remaining blocks. -/
theorem scatter_two_windows_apply
    (d1 : ScatterDims ⟨2, ![10, 1024]⟩ ⟨1, ![2]⟩ ⟨2, ![4, 512]⟩)
    (d2 : ScatterDims ⟨2, ![10, 1024]⟩ ⟨1, ![2]⟩ ⟨2, ![6, 512]⟩)
    (h11 : d1.updateWindowDims = [0, 1]) (h12 : d1.insertedWindowDims = [])
    (h13 : d1.scatterDimsToOperandDims = [0, 1]) (h14 : d1.indexVectorDim = 0)
    (h21 : d2.updateWindowDims = [0, 1]) (h22 : d2.insertedWindowDims = [])
    (h23 : d2.scatterDimsToOperandDims = [0, 1]) (h24 : d2.indexVectorDim = 0)
    (Z : (⟨2, ![10, 1024]⟩ : Shape).Idx → α) (idx1 idx2 : IVec ⟨1, ![2]⟩ 32)
    (u1 : (⟨2, ![4, 512]⟩ : Shape).Idx → α) (u2 : (⟨2, ![6, 512]⟩ : Shape).Idx → α)
    (hr1 : (idx1 (ix1 0)).toInt = 0) (hc1 : (idx1 (ix1 1)).toInt = 0)
    (hr2 : (idx2 (ix1 0)).toInt = 4) (hc2 : (idx2 (ix1 1)).toInt = 512)
    (p : Fin 10) (q : Fin 1024) :
    Host.scatter d2 (fun _ b => b) (Host.scatter d1 (fun _ b => b) Z idx1 u1) idx2 u2 (ix2 p q) =
      if h1 : p.val < 4 ∧ q.val < 512 then u1 (ix2 ⟨p.val, h1.1⟩ ⟨q.val, h1.2⟩)
      else if h2 : 4 ≤ p.val ∧ 512 ≤ q.val then u2 (ix2 ⟨p.val - 4, by omega⟩ ⟨q.val - 512, by omega⟩)
      else Z (ix2 p q) := by
  have hp := p.isLt
  have hq := q.isLt
  rw [scatter_window2_set_apply d2 h21 h22 h23 h24 _ idx2 u2 4 512 (by rw [hr2]; rfl) (by rw [hc2]; rfl)
        (by norm_num) (by norm_num) p q,
      scatter_window2_set_apply d1 h11 h12 h13 h14 Z idx1 u1 0 0 (by rw [hr1]; rfl) (by rw [hc1]; rfl)
        (by norm_num) (by norm_num) p q]
  by_cases h1 : p.val < 4 ∧ q.val < 512
  · rw [dif_pos h1, dif_neg (by omega), dif_pos (by omega)]
    exact congrArg u1 (ix2_congr (Fin.ext (Nat.sub_zero _)) (Fin.ext (Nat.sub_zero _)))
  · rw [dif_neg h1]
    by_cases h2 : 4 ≤ p.val ∧ 512 ≤ q.val
    · rw [dif_pos h2, dif_pos (by omega)]
    · rw [dif_neg h2, dif_neg (by omega), dif_neg (by omega)]

end Main

end LibWindowSet
-- ==== Proof.Bridge.lean ====
import proofs.«109030_j74586402062456_2_alg».proof.Proof.Gen.KernelIdeal.Frame
import proofs.«109030_j74586402062456_2_alg».proof.Proof.Gen.ReferenceIdeal.Read
import proofs.«109030_j74586402062456_2_alg».proof.Proof.KernelHost
import proofs.«109030_j74586402062456_2_alg».proof.Proof.Features
import proofs.«109030_j74586402062456_2_alg».proof.Proof.RefValue
import proofs.«109030_j74586402062456_2_alg».proof.Proof.Spec
import proofs.«109030_j74586402062456_2_alg».proof.Proof.BlockDiagonal
import proofs.«109030_j74586402062456_2_alg».proof.Proof.Joined
import proofs.«109030_j74586402062456_2_alg».proof.Proof.LibWindowSet

/-!
  The kernel program's two output functions are the reference's two flattened results.

  Both programs compute the two feature arrays (four and six features per row) by the same host lines, so they are
  carried as the reference's own stages.  The kernel joins them into ten features per row and multiplies by the joined
  weights, which are block diagonal: the first four rows carry the first weight matrix in the left 512 columns, the last six
  the third weight matrix in the right 512 columns, every other entry is zero.  A product with a zero entry is zero on
  the extended reals with no finiteness, so the left half of the joined product is the product of the four features
  with the first weight matrix and the right half that of the six features with the third; the bias is joined the same
  way.  After that both programs apply the same second layer and add the same flattened features.
-/

noncomputable section

namespace Cert.Bridge

open Cert.KernelIdeal Cert.KernelIdeal.Gen Idealize.ShloMosaic Idealize.ShloMosaic.TcCoe Idealize.SL.Sem
open Idealize.ShloMosaic.StableHlo Idealize.ShloMosaic.ValueIdx Cert.Spec

variable (m : (ℓ : Loc nD τ sig) → Buf (Elt Ideal) ℓ)

/-- The joined features at a column of the four-feature array. -/
theorem joined_left (c : Dev nD) (r : Fin 65536) (j : Fin 10) (h : j.val < 4) :
    V m c main_v43 (ix2 r j)
      = Cert.ReferenceIdeal.Read.val_main_v29 (F := Ideal) (m ((c : Thread nD τ).loc main_arg0)) (m ((c : Thread nD τ).loc main_arg2))
          (ix2 r ⟨j.val, h⟩) := by
  rw [HostSide.joined_features m c, Cert.Features.features4 m c]
  exact Cert.Joined.side_by_side_left (R := 65536) (a := 4) (b := 6) _ _ concatenates_S65536x4_S65536x6_S65536x10_d1 r j h

/-- The joined features at a column of the six-feature array. -/
theorem joined_right (c : Dev nD) (r : Fin 65536) (j : Fin 10) (h : 4 ≤ j.val) :
    V m c main_v43 (ix2 r j)
      = Cert.ReferenceIdeal.Read.val_main_v52 (F := Ideal) (m ((c : Thread nD τ).loc main_arg0)) (m ((c : Thread nD τ).loc main_arg2))
          (ix2 r ⟨j.val - 4, by have := j.isLt; omega⟩) := by
  rw [HostSide.joined_features m c, Cert.Features.features6 m c]
  exact Cert.Joined.side_by_side_right (R := 65536) (a := 4) (b := 6) _ _ concatenates_S65536x4_S65536x6_S65536x10_d1 r j h

/-- The joined weights are block diagonal. -/
theorem joined_weights_apply (c : Dev nD) (p : Fin 10) (q : Fin 1024) :
    (V m c main_v54 : S10x1024.Idx → EReal) (ix2 p q)
      = if h1 : p.val < 4 ∧ q.val < 512 then (m ((c : Thread nD τ).loc main_arg3) : S4x512.Idx → EReal) (ix2 ⟨p.val, h1.1⟩ ⟨q.val, h1.2⟩)
        else if h2 : 4 ≤ p.val ∧ 512 ≤ q.val then
          (m ((c : Thread nD τ).loc main_arg7) : S6x512.Idx → EReal) (ix2 ⟨p.val - 4, by omega⟩ ⟨q.val - 512, by omega⟩)
        else (0 : EReal) := by
  rw [HostSide.joined_weights m c]
  refine (LibWindowSet.scatter_two_windows_apply scatter_S10x1024_S2_S4x512_01_n_01_0 scatter_S10x1024_S2_S6x512_01_n_01_0
    rfl rfl rfl rfl rfl rfl rfl rfl _ _ _ _ _ ?_ ?_ ?_ ?_ p q).trans ?_
  · exact congrArg BitVec.toInt (Cert.Joined.end_to_end_left (a := 1) (b := 1) _ _ concatenates_S1_S1_S2_d0 (0 : Fin 2) (by decide))
  · exact congrArg BitVec.toInt (Cert.Joined.end_to_end_right (a := 1) (b := 1) _ _ concatenates_S1_S1_S2_d0 (1 : Fin 2) (by decide))
  · exact congrArg BitVec.toInt (Cert.Joined.end_to_end_left (a := 1) (b := 1) _ _ concatenates_S1_S1_S2_d0 (0 : Fin 2) (by decide))
  · exact congrArg BitVec.toInt (Cert.Joined.end_to_end_right (a := 1) (b := 1) _ _ concatenates_S1_S1_S2_d0 (1 : Fin 2) (by decide))
  · have hZ : ∀ i : S10x1024.Idx, broadcastInDim S10x1024 ![] bcast_S_S10x1024 (constant (F := Ideal) S_ .bf16 0x0000#16) i = 0 :=
      fun _ => Cert.Joined.ofBits_zero_bf16
    simp only [hZ]
    rfl

/-- The joined bias at a left column. -/
theorem joined_bias_left (c : Dev nD) (k : Fin 512) :
    V m c main_v56 (ix2 (0 : Fin 1) (lo k)) = (m ((c : Thread nD τ).loc main_arg4) : S512.Idx → EReal) (ix1 k) := by
  rw [HostSide.joined_bias m c, shapeCast_a_1a_apply]
  exact Cert.Joined.end_to_end_left (a := 512) (b := 512) _ _ concatenates_S512_S512_S1024_d0 (lo k) k.isLt

/-- The joined bias at a right column. -/
theorem joined_bias_right (c : Dev nD) (k : Fin 512) :
    V m c main_v56 (ix2 (0 : Fin 1) (hi k)) = (m ((c : Thread nD τ).loc main_arg8) : S512.Idx → EReal) (ix1 k) := by
  rw [HostSide.joined_bias m c, shapeCast_a_1a_apply]
  refine (Cert.Joined.end_to_end_right (a := 512) (b := 512) _ _ concatenates_S512_S512_S1024_d0 (hi k) (by show 512 ≤ 512 + k.val; omega)).trans ?_
  exact congrArg _ (congrArg ix1 (Fin.ext (by show 512 + k.val - 512 = k.val; omega)))

/-- The kernel program's first output function is the reference's first flattened result. -/
theorem pos_eq (c : Dev nD) :
    GPos (V m c main_v43) (V m c main_v8) (V m c main_v54) (V m c main_v56) (V m c main_v57) (V m c main_v59)
      = Cert.ReferenceIdeal.Read.val_main_v39 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  funext i
  obtain ⟨r, q, rfl⟩ : ∃ (r : Fin 65536) (q : Fin 512), i = ix2 r q := ⟨i 0, i 1, eq_ix2 i⟩
  rw [Cert.ReferenceIdeal.RefValue.pos_apply]
  show posAt _ _ _ _ _ _ r q = _
  refine (Cert.BlockDiagonal.posAt_split (V m c main_v43) _ (V m c main_v8) (V m c main_v54) _ _ (V m c main_v56) _ (V m c main_v57)
    (V m c main_v59) (joined_left m c) (joined_weights_apply m c) (joined_bias_left m c) r q).trans ?_
  rw [HostSide.flat_features m c, HostSide.weights_pos m c, HostSide.bias_pos m c]
  simp only [shapeCast_a_1a_apply, truncf_apply]
  rfl

/-- The kernel program's second output function is the reference's second flattened result. -/
theorem geo_eq (c : Dev nD) :
    GGeo (V m c main_v43) (V m c main_v8) (V m c main_v54) (V m c main_v56) (V m c main_v58) (V m c main_v60)
      = Cert.ReferenceIdeal.Read.val_main_v62 (F := Ideal) (m ((c : Thread nD τ).loc main_arg0)) (m ((c : Thread nD τ).loc main_arg1))
          (m ((c : Thread nD τ).loc main_arg2)) (m ((c : Thread nD τ).loc main_arg7)) (m ((c : Thread nD τ).loc main_arg8))
          (m ((c : Thread nD τ).loc main_arg9)) (m ((c : Thread nD τ).loc main_arg10)) := by
  funext i
  obtain ⟨r, q, rfl⟩ : ∃ (r : Fin 65536) (q : Fin 512), i = ix2 r q := ⟨i 0, i 1, eq_ix2 i⟩
  rw [Cert.ReferenceIdeal.RefValue.geo_apply]
  show geoAt _ _ _ _ _ _ r q = _
  refine (Cert.BlockDiagonal.geoAt_split (V m c main_v43) _ (V m c main_v8) (V m c main_v54) _ _ (V m c main_v56) _ (V m c main_v58)
    (V m c main_v60) (joined_right m c) (joined_weights_apply m c) (joined_bias_right m c) r q).trans ?_
  rw [HostSide.flat_features m c, HostSide.weights_geo m c, HostSide.bias_geo m c]
  simp only [shapeCast_a_1a_apply, truncf_apply]
  rfl

end Cert.Bridge

end
-- ==== Proof.lean ====
/-
  The kernel and its reference agree on the extended reals.

  The reference computes, for every one of the 65536 points, two small feature rows (four and six features) and passes
  each through its own two-layer network, adding the result to the point's feature vector.  The kernel joins the two
  feature rows into one row of ten features and the two first layers into one block-diagonal layer, so that one matrix
  product serves both networks; its second layers and the final sums are the reference's.  On the extended reals a
  product with a zero weight is zero whatever the other factor, so the joined first layer splits back into its two
  blocks with no appeal to finiteness, and the two programs end with equal results, entry by entry.

  The three frames are the generated ones (the reference's is its generated run with the results dropped); the ideal
  pass rewrote nothing, so the idealization claim is trivial; the value claim is assembled here from the kernel
  program's run with its results named and the reference's generated run.
-/
import proofs.«109030_j74586402062456_2_alg».proof.Defs
import proofs.«109030_j74586402062456_2_alg».proof.Proof.Gen.Kernel
import proofs.«109030_j74586402062456_2_alg».proof.Proof.Gen.Kernel.Skeleton
import proofs.«109030_j74586402062456_2_alg».proof.Proof.Gen.Kernel.Launch
import proofs.«109030_j74586402062456_2_alg».proof.Proof.Gen.Kernel.Points
import proofs.«109030_j74586402062456_2_alg».proof.Proof.Gen.Kernel.Frame
import proofs.«109030_j74586402062456_2_alg».proof.Proof.Gen.KernelIdeal
import proofs.«109030_j74586402062456_2_alg».proof.Proof.Gen.KernelIdeal.Skeleton
import proofs.«109030_j74586402062456_2_alg».proof.Proof.Gen.KernelIdeal.Launch
import proofs.«109030_j74586402062456_2_alg».proof.Proof.Gen.KernelIdeal.Points
import proofs.«109030_j74586402062456_2_alg».proof.Proof.Gen.KernelIdeal.Frame
import proofs.«109030_j74586402062456_2_alg».proof.Proof.Gen.ReferenceIdeal
import proofs.«109030_j74586402062456_2_alg».proof.Proof.Gen.ReferenceIdeal.Run
import proofs.«109030_j74586402062456_2_alg».proof.Proof.Gen.ReferenceIdeal.Read
import proofs.«109030_j74586402062456_2_alg».proof.Proof.Gen.Pre_finite_inputs
import proofs.«109030_j74586402062456_2_alg».proof.Proof.KernelRun
import proofs.«109030_j74586402062456_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments the two programs end with equal results: each result of the kernel program
    is its output function of the region's input arrays, re-laid, each result of the reference its flattened result,
    re-laid the same way, and the output functions are the flattened results. -/
theorem algebraic : Cert.algebraic_KernelIdeal_ReferenceIdeal := by
  intro m ρ m' ρ' _ hagree
  refine ⟨_, _, Cert.KernelIdeal.RunSide.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, -⟩ := hagree c
    rw [Cert.ReferenceIdeal.Read.val_main_v63_eq, e0, e1, e2, e3, e4, e5, e6]
    unfold Cert.ReferenceIdeal.Read.val_main_v63
    exact congrArg (fun z => shapeCast Cert.KernelIdeal.S4x16384x512 z _)
      (Cert.Bridge.pos_eq m c).symm
  · obtain ⟨e0, e1, e2, -, -, -, -, e7, e8, e9, e10⟩ := hagree c
    rw [Cert.ReferenceIdeal.Read.val_main_v64_eq, e0, e1, e2, e7, e8, e9, e10]
    unfold Cert.ReferenceIdeal.Read.val_main_v64
    exact congrArg (fun z => shapeCast Cert.KernelIdeal.S4x16384x512 z _)
      (Cert.Bridge.geo_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
